-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  main_v8
-- ==== Kernel.lean ====
abbrev S16384x1024 : Shape := ⟨2, ![16384, 1024]⟩
abbrev S16777216 : Shape := ⟨1, ![16777216]⟩
abbrev S16x1024 : Shape := ⟨2, ![16, 1024]⟩
abbrev S512x1024 : Shape := ⟨2, ![512, 1024]⟩
abbrev S8x1024 : Shape := ⟨2, ![8, 1024]⟩
abbrev S64x8x1024 : Shape := ⟨3, ![64, 8, 1024]⟩
abbrev S_ : Shape := ⟨0, ![]⟩

abbrev nBuf : Space → Nat
  | .hbm => 45
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16777216, .f32⟩
  | .hbm, ⟨3, _⟩ => ⟨S16777216, .f32⟩
  | .hbm, ⟨4, _⟩ => ⟨S16384x1024, .f32⟩
  | .hbm, ⟨5, _⟩ => ⟨S16384x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_cst_8 : Ref sig .tc := ⟨.hbm, 34, rfl⟩
abbrev main_v21 : Ref sig .tc := ⟨.hbm, 35, rfl⟩
abbrev main_v22 : Ref sig .tc := ⟨.hbm, 36, rfl⟩
abbrev main_cst_9 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_10 : Ref sig .tc := ⟨.hbm, 41, rfl⟩
abbrev main_v26 : Ref sig .tc := ⟨.hbm, 42, rfl⟩
abbrev main_cst_11 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384x1024_S16777216 : S16384x1024.ShapeCasts S16777216
  shapeCasts_S16777216_S16384x1024 : S16777216.ShapeCasts S16384x1024
  inb_S8x1024_S8x1024_0_0 : ∀ a, (![0, 0] : Fin 2 → Nat) a + S8x1024.size a ≤ S8x1024.size a
  h_S8x1024 : 0 < S8x1024.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S8x1024_S8x1024 : S8x1024.ShapeCasts S8x1024
  shapeCasts_S512x1024_S64x8x1024 : S512x1024.ShapeCasts S64x8x1024
  reduces_S64x8x1024_S8x1024 : S64x8x1024.Reduces [0] S8x1024
  reducesTo_S16x1024_S_d0_1 : S16x1024.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S16x1024.size a
  hwx0_2 : ∀ i : grid0.Coords, EltTy.bits .f32 = 32 ∨ (Rect.block (s := S16x1024) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S16x1024.size a
  hwx0_3 : ∀ i : grid0.Coords, EltTy.bits .f32 = 32 ∨ (Rect.block (s := S16x1024) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S16x1024.size a
  hwx0_4 : ∀ i : grid0.Coords, EltTy.bits .f32 = 32 ∨ (Rect.block (s := S16x1024) S8x1024.size (cc0_transform_4 i) (hinb0_4 i)).WholeWords (EltTy.packing .f32)

variable [Facts₀]

abbrev win0_0 : Pipeline.Window sig grid0 :=
  Pipeline.Window.ofSpec (Memref.whole main_v2) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S8x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S8x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S8x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16777216 : Shape := ⟨1, ![16777216]⟩
abbrev S131072x128 : Shape := ⟨2, ![131072, 128]⟩
abbrev S16x128 : Shape := ⟨2, ![16, 128]⟩
abbrev S4096x128 : Shape := ⟨2, ![4096, 128]⟩
abbrev S8x128 : Shape := ⟨2, ![8, 128]⟩
abbrev S512x8x128 : Shape := ⟨3, ![512, 8, 128]⟩
abbrev S_ : Shape := ⟨0, ![]⟩

abbrev nBuf : Space → Nat
  | .hbm => 43
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16777216, .f32⟩
  | .hbm, ⟨3, _⟩ => ⟨S16777216, .f32⟩
  | .hbm, ⟨4, _⟩ => ⟨S131072x128, .f32⟩
  | .hbm, ⟨5, _⟩ => ⟨S131072x128, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev main_v11 : Ref sig .tc := ⟨.hbm, 21, rfl⟩
abbrev main_cst_5 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_7 : Ref sig .tc := ⟨.hbm, 30, rfl⟩
abbrev main_v18 : Ref sig .tc := ⟨.hbm, 31, rfl⟩
abbrev main_cst_8 : Ref sig .tc := ⟨.hbm, 32, rfl⟩
abbrev main_v19 : Ref sig .tc := ⟨.hbm, 33, rfl⟩
abbrev main_v20 : Ref sig .tc := ⟨.hbm, 34, rfl⟩
abbrev main_cst_9 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_10 : Ref sig .tc := ⟨.hbm, 39, rfl⟩
abbrev main_v24 : Ref sig .tc := ⟨.hbm, 40, rfl⟩
abbrev main_cst_11 : Ref sig .tc := ⟨.hbm, 41, rfl⟩
abbrev main_v25 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16384x1024_S16777216 : S16384x1024.ShapeCasts S16777216
  shapeCasts_S16777216_S131072x128 : S16777216.ShapeCasts S131072x128
  inb_S8x128_S8x128_0_0 : ∀ a, (![0, 0] : Fin 2 → Nat) a + S8x128.size a ≤ S8x128.size a
  h_S8x128 : 0 < S8x128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S8x128_S8x128 : S8x128.ShapeCasts S8x128
  shapeCasts_S4096x128_S512x8x128 : S4096x128.ShapeCasts S512x8x128
  reduces_S512x8x128_S8x128 : S512x8x128.Reduces [0] S8x128
  reducesTo_S16x128_S_d0_1 : S16x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S131072x128.size a
  hwx0_1 : ∀ i : grid0.Coords, EltTy.bits .f32 = 32 ∨ (Rect.block (s := S131072x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

abbrev win0_0 : Pipeline.Window sig grid0 :=
  Pipeline.Window.ofSpec (Memref.whole main_v2) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4_0) S8x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4_1) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_2) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.Spec.lean ====
/-
  The soft-F1 loss as ONE function of three scalars, and the scalars as sums over the [16384, 1024] arguments.

  With tp = Σ yt·yp, fn = Σ (1 − yt)·yp and fp = Σ yt·(1 − yp) the loss is
    1 − where(q ≠ q, 0, q),  q = 2·(p·r) / (1·p + r + ε),  p = tp / (tp + fp + ε),  r = tp / (tp + fn + ε).
  One program forms fn and fp as Σ yp − tp and Σ yt − tp, the other sums the products directly; `loss` is the part
  they share, stated over the rank-0 shape with the operations read at the extended reals.
-/
import Idealize.ShloMosaic.PureOps.Ideal
import Idealize.ShloMosaic.PureOps.Ideal.Laws
import Idealize.ShloMosaic.Lib.ValueIdx

noncomputable section

open Idealize.ShloMosaic

namespace Cert.SoftF1

/-- The shape of both arguments. -/
abbrev SIn : Shape := ⟨2, ![16384, 1024]⟩
/-- The rank-0 shape of the result. -/
abbrev SSc : Shape := ⟨0, ![]⟩

/-- The float word 1.0 at the extended reals. -/
abbrev one : Ideal .f32 := Ideal.ofBits .f32 0x3F800000#32

/-- Σ yt·yp over every entry. -/
def sumTP (yp yt : SIn.Idx → Ideal .f32) : Ideal .f32 := ∑ i, yt i * yp i
/-- Σ yp over every entry. -/
def sumP (yp : SIn.Idx → Ideal .f32) : Ideal .f32 := ∑ i, yp i
/-- Σ yt over every entry. -/
def sumT (yt : SIn.Idx → Ideal .f32) : Ideal .f32 := ∑ i, yt i
/-- Σ (1 − yt)·yp over every entry. -/
def sumFN (yp yt : SIn.Idx → Ideal .f32) : Ideal .f32 := ∑ i, (one - yt i) * yp i
/-- Σ yt·(1 − yp) over every entry. -/
def sumFP (yp yt : SIn.Idx → Ideal .f32) : Ideal .f32 := ∑ i, yt i * (one - yp i)

/-- The loss from the three scalars tp, fn, fp. -/
def loss (tp fn fp : FVec Ideal SSc .f32) : FVec Ideal SSc .f32 :=
  let eps : FVec Ideal SSc .f32 := constant SSc .f32 0x358637BD#32
  let p : FVec Ideal SSc .f32 := Host.divf tp (addf (addf tp fp) eps)
  let r : FVec Ideal SSc .f32 := Host.divf tp (addf (addf tp fn) eps)
  let q : FVec Ideal SSc .f32 := Host.divf (mulf (constant SSc .f32 0x40000000#32) (mulf p r))
    (addf (addf (mulf (constant SSc .f32 0x3F800000#32) p) r) eps)
  subf (constant SSc .f32 0x3F800000#32) (select (cmpf .une q q) (constant SSc .f32 0x00000000#32) q)

/-- The loss with fn and fp formed as differences of plain sums. -/
def lossK (yp yt : SIn.Idx → Ideal .f32) : FVec Ideal SSc .f32 :=
  loss (fun _ => sumTP yp yt) (subf (fun _ => sumP yp) (fun _ => sumTP yp yt)) (subf (fun _ => sumT yt) (fun _ => sumTP yp yt))

/-- The loss with fn and fp summed directly. -/
def lossR (yp yt : SIn.Idx → Ideal .f32) : FVec Ideal SSc .f32 :=
  loss (fun _ => sumTP yp yt) (fun _ => sumFN yp yt) (fun _ => sumFP yp yt)

/-- An array over the argument shape read at natural-number coordinates (zero outside the shape), so that tiled
    sums can be stated without carrying bound proofs. -/
def ext {M : Type*} [Zero M] (A : SIn.Idx → M) (R j : ℕ) : M :=
  if h : R < 16384 ∧ j < 1024 then A (ValueIdx.ix2 ⟨R, h.1⟩ ⟨j, h.2⟩) else 0

theorem ext_apply {M : Type*} [Zero M] (A : SIn.Idx → M) (R : Fin 16384) (j : Fin 1024) :
    ext A R.val j.val = A (ValueIdx.ix2 R j) := by
  unfold ext
  rw [dif_pos ⟨R.isLt, j.isLt⟩]

end Cert.SoftF1

end
-- ==== Proof.LibFinite.lean ====
/-
  Extended reals that are real numbers: the variance identity.

  Over the extended reals, "mean of squares minus square of mean" and "mean of squared deviations" agree
  when every entry of the column is a real number: then every sum, quotient by the (nonzero) count and
  product below is the extended real of the corresponding real expression, and the identity is the
  textbook one over the reals.
-/
import Idealize.ShloMosaic.PureOps.Ideal.Laws
import Mathlib.Algebra.BigOperators.Field
import Mathlib.Tactic.FieldSimp
import Mathlib.Tactic.Ring

noncomputable section

open scoped BigOperators

namespace Cert.Fin

open Idealize.ShloMosaic

/-- Every entry of the family is (the extended real of) a real number. -/
def AllReal {ι : Type*} (v : ι → EReal) : Prop := ∀ i, ∃ r : ℝ, v i = (r : EReal)

/-- A family of reals, seen in the extended reals, is all real. -/
theorem allReal_coe {ι : Type*} (f : ι → ℝ) : AllReal (fun i => (f i : EReal)) := fun i => ⟨f i, rfl⟩

/-- An all-real family is the extended-real image of a family of reals. -/
theorem AllReal.exists_fun {ι : Type*} {v : ι → EReal} (h : AllReal v) :
    ∃ f : ι → ℝ, v = fun i => (f i : EReal) := by
  choose f hf using h
  exact ⟨f, funext hf⟩

/-- The extended real of a finite sum of reals is the sum of the extended reals. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem sum_real {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl (fun i _ => hg i)⟩

/-- A finite sum of reals is real, when only the summands in the range are known to be real. -/
theorem sum_real_of_mem {ι : Type*} (s : Finset ι) (f : ι → EReal)
    (h : ∀ i ∈ s, ∃ r : ℝ, f i = (r : EReal)) : ∃ r : ℝ, ∑ i ∈ s, f i = (r : EReal) := by
  classical
  induction s using Finset.induction_on with
  | empty => exact ⟨0, by simp⟩
  | insert a s ha ih =>
    obtain ⟨ra, hra⟩ := h a (Finset.mem_insert_self a s)
    obtain ⟨rs, hrs⟩ := ih (fun i hi => h i (Finset.mem_insert_of_mem hi))
    exact ⟨ra + rs, by rw [Finset.sum_insert ha, hra, hrs, EReal.coe_add]⟩

/-- The sum of two reals is real. -/
theorem add_real {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

/-- The difference of two reals is real. -/
theorem sub_real {a b : EReal} (ha : ∃ r : ℝ, a = (r : EReal)) (hb : ∃ r : ℝ, b = (r : EReal)) :
    ∃ r : ℝ, a - b = (r : EReal) := by
  obtain ⟨x, rfl⟩ := ha; obtain ⟨y, rfl⟩ := hb; exact ⟨x - y, (EReal.coe_sub x y).symm⟩

/-- The product of two reals is real. -/
theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- The maximum of two reals is real. -/
theorem max_real {a b : EReal} (ha : ∃ r : ℝ, a = (r : EReal)) (hb : ∃ r : ℝ, b = (r : EReal)) :
    ∃ r : ℝ, max a b = (r : EReal) := by
  obtain ⟨x, rfl⟩ := ha; obtain ⟨y, rfl⟩ := hb
  rcases le_total x y with h | h
  · exact ⟨y, max_eq_right (EReal.coe_le_coe_iff.mpr h)⟩
  · exact ⟨x, max_eq_left (EReal.coe_le_coe_iff.mpr h)⟩

/-- A real divided by a nonzero real is real. -/
theorem div_real {a b : EReal} (ha : ∃ r : ℝ, a = (r : EReal)) (hb : ∃ r : ℝ, r ≠ 0 ∧ b = (r : EReal)) :
    ∃ r : ℝ, Ideal.div a b = (r : EReal) := by
  obtain ⟨x, rfl⟩ := ha; obtain ⟨y, hy, rfl⟩ := hb
  exact ⟨x * (1 / y), by rw [Ideal.div_coe hy, EReal.coe_mul]⟩

/-! ## The variance identity -/

/-- The real identity behind the variance: with `S = ∑ f`, `Q = ∑ f²` and `n ≠ 0` entries,
    `Q/n − (S/n)² = (∑ (f − S/n)²)/n`. -/
theorem var_identity_real {n : ℕ} (hn : 0 < n) (f : Fin n → ℝ) :
    (∑ r, f r * f r) * (1 / (n : ℝ)) - (∑ r, f r) * (1 / (n : ℝ)) * ((∑ r, f r) * (1 / (n : ℝ)))
      = (∑ r, (f r - (∑ r, f r) * (1 / (n : ℝ))) * (f r - (∑ r, f r) * (1 / (n : ℝ)))) * (1 / (n : ℝ)) := by
  have hn0 : (n : ℝ) ≠ 0 := by exact_mod_cast hn.ne'
  set S : ℝ := ∑ r, f r with hS
  set m : ℝ := S * (1 / (n : ℝ)) with hm
  have hexp : ∀ r, (f r - m) * (f r - m) = f r * f r - 2 * m * f r + m * m := fun r => by ring
  have hsum : ∑ r, (f r - m) * (f r - m) = (∑ r, f r * f r) - 2 * m * S + (n : ℝ) * (m * m) := by
    simp_rw [hexp]
    rw [Finset.sum_add_distrib, Finset.sum_sub_distrib, ← Finset.mul_sum, Finset.sum_const, Finset.card_univ,
      Fintype.card_fin, nsmul_eq_mul]
  rw [hsum, hm]
  field_simp
  ring

/-- Variance two ways. For a column `x` of `n > 0` real entries and `N` the count `n`: the mean of the squares
    minus the square of the mean is the mean of the squared deviations from the mean (each sum on the right
    started from zero, as a reduction from a zero initial value is). -/
theorem var_identity {n : ℕ} (hn : 0 < n) (x : Fin n → EReal) (hx : AllReal x) (N : EReal)
    (hN : N = ((n : ℝ) : EReal)) :
    Ideal.div (∑ r, x r * x r) N - Ideal.div (∑ r, x r) N * Ideal.div (∑ r, x r) N
      = Ideal.div (0 + ∑ r, (x r - Ideal.div (0 + ∑ r, x r) N) * (x r - Ideal.div (0 + ∑ r, x r) N)) N := by
  have hn0 : (n : ℝ) ≠ 0 := by exact_mod_cast hn.ne'
  obtain ⟨f, rfl⟩ := hx.exists_fun
  subst hN
  simp only [zero_add, Ideal.div_coe hn0, ← EReal.coe_mul, ← coe_sum, ← EReal.coe_sub]
  rw [var_identity_real hn f]

/-- The mean of a real column is real. -/
theorem mean_real {n : ℕ} (hn : 0 < n) (x : Fin n → EReal) (hx : AllReal x) (N : EReal)
    (hN : N = ((n : ℝ) : EReal)) : ∃ m : ℝ, Ideal.div (0 + ∑ r, x r) N = (m : EReal) := by
  have hn0 : (n : ℝ) ≠ 0 := by exact_mod_cast hn.ne'
  obtain ⟨f, rfl⟩ := hx.exists_fun
  subst hN
  exact ⟨(∑ r, f r) * (1 / (n : ℝ)), by simp only [zero_add, Ideal.div_coe hn0, ← EReal.coe_mul, ← coe_sum]⟩

/-- The variance of a real column is a nonnegative real. -/
theorem var_nonneg_real {n : ℕ} (hn : 0 < n) (x : Fin n → EReal) (hx : AllReal x) (N : EReal)
    (hN : N = ((n : ℝ) : EReal)) :
    ∃ v : ℝ, 0 ≤ v ∧
      Ideal.div (0 + ∑ r, (x r - Ideal.div (0 + ∑ r, x r) N) * (x r - Ideal.div (0 + ∑ r, x r) N)) N
        = (v : EReal) := by
  have hn0 : (n : ℝ) ≠ 0 := by exact_mod_cast hn.ne'
  obtain ⟨f, rfl⟩ := hx.exists_fun
  subst hN
  refine ⟨(∑ r, (f r - (∑ r, f r) * (1 / (n : ℝ))) * (f r - (∑ r, f r) * (1 / (n : ℝ)))) * (1 / (n : ℝ)), ?_, ?_⟩
  · apply mul_nonneg
    · exact Finset.sum_nonneg (fun r _ => mul_self_nonneg _)
    · positivity
  · simp only [zero_add, Ideal.div_coe hn0, ← EReal.coe_mul, ← coe_sum, ← EReal.coe_sub]

end Cert.Fin
-- ==== Proof.Law.lean ====
/-
  The two ways of forming the false-negative and false-positive scalars agree on real inputs.

  When every entry of yp and yt is a real number, every product, difference and finite sum below is the extended
  real of the same expression over the reals, where Σ (1 − yt)·yp = Σ yp − Σ yt·yp and Σ yt·(1 − yp) = Σ yt − Σ yt·yp
  by distributing and splitting the sum. The loss is a function of the three scalars, so it takes the same value.
-/
import proofs.«138703_g2000304976040598_pallasbulk_888_2_alg».proof.Proof.Spec
import proofs.«138703_g2000304976040598_pallasbulk_888_2_alg».proof.Proof.LibFinite

noncomputable section

open Idealize.ShloMosaic

namespace Cert.SoftF1

/-- The float word 1.0 denotes the real number 1. -/
theorem one_eq : one = ((1 : ℝ) : EReal) := by
  show Ideal.ofBits .f32 0x3F800000#32 = ((1 : ℝ) : EReal)
  rw [EReal.coe_one]
  simp [Ideal.ofBits, Ideal.ieee, -EReal.coe_mul]; norm_num

/-- Σ (1 − yt)·yp = Σ yp − Σ yt·yp on real entries. -/
theorem sumFN_eq (yp yt : SIn.Idx → Ideal .f32) (hp : ∀ i, ∃ r : ℝ, yp i = (r : EReal))
    (ht : ∀ i, ∃ r : ℝ, yt i = (r : EReal)) : sumFN yp yt = sumP yp - sumTP yp yt := by
  choose p hp using hp
  choose t ht using ht
  unfold sumFN sumP sumTP
  simp only [hp, ht, one_eq, ← EReal.coe_sub, ← EReal.coe_mul, ← Cert.Fin.coe_sum]
  refine EReal.coe_eq_coe_iff.mpr ?_
  rw [← Finset.sum_sub_distrib]
  exact Finset.sum_congr rfl fun i _ => by ring

/-- Σ yt·(1 − yp) = Σ yt − Σ yt·yp on real entries. -/
theorem sumFP_eq (yp yt : SIn.Idx → Ideal .f32) (hp : ∀ i, ∃ r : ℝ, yp i = (r : EReal))
    (ht : ∀ i, ∃ r : ℝ, yt i = (r : EReal)) : sumFP yp yt = sumT yt - sumTP yp yt := by
  choose p hp using hp
  choose t ht using ht
  unfold sumFP sumT sumTP
  simp only [hp, ht, one_eq, ← EReal.coe_sub, ← EReal.coe_mul, ← Cert.Fin.coe_sum]
  refine EReal.coe_eq_coe_iff.mpr ?_
  rw [← Finset.sum_sub_distrib]
  exact Finset.sum_congr rfl fun i _ => by ring

/-- On real inputs the loss formed from differences of plain sums is the loss formed from the direct sums. -/
theorem lossK_eq_lossR (yp yt : SIn.Idx → Ideal .f32) (hp : ∀ i, ∃ r : ℝ, yp i = (r : EReal))
    (ht : ∀ i, ∃ r : ℝ, yt i = (r : EReal)) : lossK yp yt = lossR yp yt := by
  have h1 : subf (fun _ => sumP yp) (fun _ => sumTP yp yt)
      = (fun _ => sumFN yp yt : FVec Ideal SSc .f32) := by
    funext i
    simp only [subf, Ideal.subf_def]
    exact (sumFN_eq yp yt hp ht).symm
  have h2 : subf (fun _ => sumT yt) (fun _ => sumTP yp yt)
      = (fun _ => sumFP yp yt : FVec Ideal SSc .f32) := by
    funext i
    simp only [subf, Ideal.subf_def]
    exact (sumFP_eq yp yt hp ht).symm
  unfold lossK lossR
  rw [h1, h2]

end Cert.SoftF1

end
-- ==== Proof.Finite.lean ====
/-
  From the stated precondition to "every input entry is a real number".

  The precondition is the conjunction of two reductions by "and" over all entries, of the comparisons |x| < +∞ and
  |y| < +∞. A reduction by "and" that comes out 1 met a 1 at every entry; at the extended reals |a| is max a (−a), the
  word of +∞ is the top element, and max a (−a) < ⊤ rules out both infinities, leaving a real number.
-/
import proofs.«138703_g2000304976040598_pallasbulk_888_2_alg».proof.Pre_finite_inputs
import Idealize.ShloMosaic.Lib.ReduceAll
import Idealize.ShloMosaic.PureOps.Ideal
import Idealize.ShloMosaic.Lib.ValueIdx

noncomputable section

open Idealize.ShloMosaic

namespace Cert.SoftF1

/-- The float word of +∞ denotes the top element. -/
theorem posInf_word_eq_top : Ideal.ofBits .f32 0x7F800000#32 = (⊤ : EReal) := by
  simp [Ideal.ofBits, Ideal.ieee]

/-- A one-bit word made from a truth value is 1 only when the value is true. -/
theorem ofBool_eq_one_imp {b : Bool} (h : BitVec.ofBool b = 1#1) : b = true := by
  revert h
  cases b <;> decide

/-- An extended real whose absolute value max a (−a) compares below +∞ is a real number. -/
theorem real_of_abs_lt_inf (a : Ideal .f32)
    (h : Ideal.cmp .olt (max a (-a)) (Ideal.ofBits .f32 0x7F800000#32) = 1#1) : ∃ r : ℝ, a = (r : EReal) := by
  rw [posInf_word_eq_top] at h
  have hb : BitVec.ofBool (decide (max a (-a) < (⊤ : EReal))) = 1#1 := h
  have h' : max a (-a) < (⊤ : EReal) := of_decide_eq_true (ofBool_eq_one_imp hb)
  induction a using EReal.rec with
  | bot => simp at h'
  | coe r => exact ⟨r, rfl⟩
  | top => simp at h'

/-- When the precondition holds, every entry of both arguments is a real number. -/
theorem allReal_of_pre [Cert.Pre_finite_inputs.Facts] (x y : FVec Ideal Cert.Pre_finite_inputs.S16384x1024 .f32)
    (h : Cert.Pre_finite_inputs.fn (F := Ideal) x y = fun _ => 1#1) :
    (∀ i, ∃ r : ℝ, x i = (r : EReal)) ∧ (∀ i, ∃ r : ℝ, y i = (r : EReal)) := by
  haveI : Subsingleton Cert.Pre_finite_inputs.S_.Idx := ⟨fun a b => funext fun d => d.elim0⟩
  have h0 := congrFun h ValueIdx.ix0
  dsimp only [Cert.Pre_finite_inputs.fn] at h0
  obtain ⟨hx, hy⟩ := IntOp.andi_eq_one.1 h0
  refine ⟨fun i => ?_, fun i => ?_⟩
  · have e := Host.reduce_andi_all _ _ _ _ _ hx i
    exact real_of_abs_lt_inf (x i) e
  · have e := Host.reduce_andi_all _ _ _ _ _ hy i
    exact real_of_abs_lt_inf (y i) e

end Cert.SoftF1

end
-- ==== Proof.Assemble.lean ====
/-
  The claim from the two value runs.

  Given that the idealized kernel ends with the loss formed from differences of plain sums (Σ yp − tp, Σ yt − tp) and
  the idealized reference with the loss formed from the direct sums, each of its own arguments and leaving them
  unchanged, the two results agree from agreeing arguments: the precondition makes every entry a real number, and on
  real entries the two losses are one value. The frames are the generated ones; the idealization rewrote nothing.
-/
import proofs.«138703_g2000304976040598_pallasbulk_888_2_alg».proof.Defs
import proofs.«138703_g2000304976040598_pallasbulk_888_2_alg».proof.Proof.Gen.Kernel
import proofs.«138703_g2000304976040598_pallasbulk_888_2_alg».proof.Proof.Gen.Kernel.Frame
import proofs.«138703_g2000304976040598_pallasbulk_888_2_alg».proof.Proof.Gen.KernelIdeal
import proofs.«138703_g2000304976040598_pallasbulk_888_2_alg».proof.Proof.Gen.KernelIdeal.Frame
import proofs.«138703_g2000304976040598_pallasbulk_888_2_alg».proof.Proof.Gen.ReferenceIdeal
import proofs.«138703_g2000304976040598_pallasbulk_888_2_alg».proof.Proof.Gen.ReferenceIdeal.Frame
import proofs.«138703_g2000304976040598_pallasbulk_888_2_alg».proof.Proof.Gen.Pre_finite_inputs
import proofs.«138703_g2000304976040598_pallasbulk_888_2_alg».proof.Proof.Spec
import proofs.«138703_g2000304976040598_pallasbulk_888_2_alg».proof.Proof.Law
import proofs.«138703_g2000304976040598_pallasbulk_888_2_alg».proof.Proof.Finite

noncomputable section

open Idealize.ShloMosaic Idealize.SL.Sem

namespace Cert.SoftF1

/-- The idealized kernel runs from any memory and ends with `lossK` of its two arguments in its result, the
    arguments unchanged. -/
abbrev KernelRuns : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v27) = Cert.SoftF1.lossK (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

/-- The idealized reference runs from any memory and ends with `lossR` of its two arguments in its result, the
    arguments unchanged. -/
abbrev ReferenceRuns : Prop :=
  ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v25) = Cert.SoftF1.lossR (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

/-- From agreeing arguments of which the precondition holds, both programs run and end with equal results: the
    kernel's `lossK` and the reference's `lossR` are one value once every entry is a real number. -/
theorem algebraic_of_runs (hK : KernelRuns) (hR : ReferenceRuns) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => lossK (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run _ _ _).mono (fun _ h c => h c) (hK m ρ), ?_⟩
  refine (θ_run Cert.ReferenceIdeal.defs _ _).mono (fun _ h c => ⟨(h c).1.trans ?_, (h c).2⟩) (hR m' ρ')
  rw [(hagree c).1, (hagree c).2]
  obtain ⟨hp, ht⟩ := allReal_of_pre _ _ (hpre c)
  exact (lossK_eq_lossR _ _ hp ht).symm

/-- The kernel as printed runs and leaves its arguments unchanged. -/
theorem frame_K : Cert.frame_Kernel := fun m ρ _ => Cert.Kernel.Gen.frame m ρ

/-- The idealized kernel runs and leaves its arguments unchanged. -/
theorem frame_KI : Cert.frame_KernelIdeal := fun m ρ _ => Cert.KernelIdeal.Gen.frame m ρ

/-- The idealized reference runs and leaves its arguments unchanged. -/
theorem frame_RI : Cert.frame_ReferenceIdeal := fun m ρ _ => Cert.ReferenceIdeal.Gen.frame m ρ

/-- The idealization rewrote no operation, so there is nothing to preserve. -/
theorem preserves : Cert.preserves_Kernel_KernelIdeal := trivial

/-- Everything the certificate claims, from the two value runs. -/
theorem claim_of_runs (hK : KernelRuns) (hR : ReferenceRuns) : Cert.Claim :=
  ⟨Cert.Kernel.Gen.facts, Cert.KernelIdeal.Gen.facts, Cert.ReferenceIdeal.Gen.facts, Cert.Pre_finite_inputs.Gen.facts,
    frame_K, frame_KI, frame_RI, preserves, algebraic_of_runs hK hR⟩

end Cert.SoftF1

end
-- ==== Proof.KPieces.lean ====
/-
  What one grid point leaves in each of the three accumulator blocks, as the body's arithmetic of the blocks it read.

  At a point that is not the first of its run (case B) the body adds, to the [8, 1024] block the point before left,
  the fold of this point's [512, 1024] input blocks; at the first point of a run (case A) it first stores the zero
  block and then adds to that. Each accumulator block is written by ONE store covering it, so what the block holds
  afterwards is that store's value.
-/
import proofs.«138703_g2000304976040598_pallasbulk_888_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]

/-- The zero offsets of a block read or written whole. -/
theorem hz : (![0, 0] : Fin 2 → Nat) = fun _ => 0 := funext fun a => by fin_cases a <;> rfl

/-- A later point of a run: accumulator 0 (Σ yt·yp) ends at its previous contents plus this point's fold. -/
theorem out_B_2 (c : Dev nD) (i : grid0.Coords) (a2 : Memref sig .tc .vmem S512x1024 .f32) (h2 : a2.IsWhole)
    (a3 : Memref sig .tc .vmem S512x1024 .f32) (h3 : a3.IsWhole) (a4 : Memref sig .tc .vmem S8x1024 .f32) (h4 : a4.IsWhole)
    (a5 : Memref sig .tc .vmem S8x1024 .f32) (h5 : a5.IsWhole) (a6 : Memref sig .tc .vmem S8x1024 .f32) (h6 : a6.IsWhole)
    (hc : ¬cond0_0 i) (x0 x1 : Vec F S512x1024 .f32) (xo2 xo3 xo4 : Vec F S8x1024 .f32) :
    out0_B_2 c i a2 h2 a3 h3 a4 h4 a5 h5 a6 h6 hc x0 x1 xo2 xo3 xo4 = k0_pay6 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  rw [View.canon_unit_zero hz]
  simp only [View.readAt_eq_ld, h2.read_unread, h3.read_unread, h4.read_unread, h5.read_unread, h6.read_unread,
    View.ld_unit_zero (S := S512x1024) hz, View.ld_unit_zero (S := S8x1024) hz]

/-- The first point of a run: accumulator 0 (Σ yt·yp) ends at the zero block plus this point's fold. -/
theorem out_A_2 (c : Dev nD) (i : grid0.Coords) (a2 : Memref sig .tc .vmem S512x1024 .f32) (h2 : a2.IsWhole)
    (a3 : Memref sig .tc .vmem S512x1024 .f32) (h3 : a3.IsWhole) (a4 : Memref sig .tc .vmem S8x1024 .f32) (h4 : a4.IsWhole)
    (a5 : Memref sig .tc .vmem S8x1024 .f32) (h5 : a5.IsWhole) (a6 : Memref sig .tc .vmem S8x1024 .f32) (h6 : a6.IsWhole)
    (hc : cond0_0 i) (x0 x1 : Vec F S512x1024 .f32) :
    out0_A_2 c i a2 h2 a3 h3 a4 h4 a5 h5 a6 h6 hc x0 x1 = k0_pay6 x0 x1 k0_pay1 := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S8x1024) hz, View.readCov_unit_zero (S := S8x1024) _ hz]
  simp only [View.readAt_eq_ld, h2.read_unread, h3.read_unread, h4.read_unread, h5.read_unread, h6.read_unread,
    View.ld_unit_zero (S := S512x1024) hz, View.ld_unit_zero (S := S8x1024) hz]

/-- A later point of a run: accumulator 1 (Σ yp) ends at its previous contents plus this point's fold. -/
theorem out_B_3 (c : Dev nD) (i : grid0.Coords) (a2 : Memref sig .tc .vmem S512x1024 .f32) (h2 : a2.IsWhole)
    (a3 : Memref sig .tc .vmem S512x1024 .f32) (h3 : a3.IsWhole) (a4 : Memref sig .tc .vmem S8x1024 .f32) (h4 : a4.IsWhole)
    (a5 : Memref sig .tc .vmem S8x1024 .f32) (h5 : a5.IsWhole) (a6 : Memref sig .tc .vmem S8x1024 .f32) (h6 : a6.IsWhole)
    (hc : ¬cond0_0 i) (x0 x1 : Vec F S512x1024 .f32) (xo2 xo3 xo4 : Vec F S8x1024 .f32) :
    out0_B_3 c i a2 h2 a3 h3 a4 h4 a5 h5 a6 h6 hc x0 x1 xo2 xo3 xo4 = k0_pay7 x0 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  rw [View.canon_unit_zero hz]
  simp only [View.readAt_eq_ld, h2.read_unread, h3.read_unread, h4.read_unread, h5.read_unread, h6.read_unread,
    View.ld_unit_zero (S := S512x1024) hz, View.ld_unit_zero (S := S8x1024) hz]

/-- The first point of a run: accumulator 1 (Σ yp) ends at the zero block plus this point's fold. -/
theorem out_A_3 (c : Dev nD) (i : grid0.Coords) (a2 : Memref sig .tc .vmem S512x1024 .f32) (h2 : a2.IsWhole)
    (a3 : Memref sig .tc .vmem S512x1024 .f32) (h3 : a3.IsWhole) (a4 : Memref sig .tc .vmem S8x1024 .f32) (h4 : a4.IsWhole)
    (a5 : Memref sig .tc .vmem S8x1024 .f32) (h5 : a5.IsWhole) (a6 : Memref sig .tc .vmem S8x1024 .f32) (h6 : a6.IsWhole)
    (hc : cond0_0 i) (x0 x1 : Vec F S512x1024 .f32) :
    out0_A_3 c i a2 h2 a3 h3 a4 h4 a5 h5 a6 h6 hc x0 x1 = k0_pay7 x0 k0_pay2 := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S8x1024) hz, View.readCov_unit_zero (S := S8x1024) _ hz]
  simp only [View.readAt_eq_ld, h2.read_unread, h3.read_unread, h4.read_unread, h5.read_unread, h6.read_unread,
    View.ld_unit_zero (S := S512x1024) hz, View.ld_unit_zero (S := S8x1024) hz]

/-- A later point of a run: accumulator 2 (Σ yt) ends at its previous contents plus this point's fold. -/
theorem out_B_4 (c : Dev nD) (i : grid0.Coords) (a2 : Memref sig .tc .vmem S512x1024 .f32) (h2 : a2.IsWhole)
    (a3 : Memref sig .tc .vmem S512x1024 .f32) (h3 : a3.IsWhole) (a4 : Memref sig .tc .vmem S8x1024 .f32) (h4 : a4.IsWhole)
    (a5 : Memref sig .tc .vmem S8x1024 .f32) (h5 : a5.IsWhole) (a6 : Memref sig .tc .vmem S8x1024 .f32) (h6 : a6.IsWhole)
    (hc : ¬cond0_0 i) (x0 x1 : Vec F S512x1024 .f32) (xo2 xo3 xo4 : Vec F S8x1024 .f32) :
    out0_B_4 c i a2 h2 a3 h3 a4 h4 a5 h5 a6 h6 hc x0 x1 xo2 xo3 xo4 = k0_pay8 x1 xo4 := by
  unfold out0_B_4
  rw [View.read_writes_eq_canon _ _ _ (cover0_B_4 c i a2 h2 a3 h3 a4 h4 a5 h5 a6 h6 hc x0 x1 xo2 xo3 xo4)]
  unfold kernelRun0_B
  dsimp only
  rw [View.canon_unit_zero hz]
  simp only [View.readAt_eq_ld, h2.read_unread, h3.read_unread, h4.read_unread, h5.read_unread, h6.read_unread,
    View.ld_unit_zero (S := S512x1024) hz, View.ld_unit_zero (S := S8x1024) hz]

/-- The first point of a run: accumulator 2 (Σ yt) ends at the zero block plus this point's fold. -/
theorem out_A_4 (c : Dev nD) (i : grid0.Coords) (a2 : Memref sig .tc .vmem S512x1024 .f32) (h2 : a2.IsWhole)
    (a3 : Memref sig .tc .vmem S512x1024 .f32) (h3 : a3.IsWhole) (a4 : Memref sig .tc .vmem S8x1024 .f32) (h4 : a4.IsWhole)
    (a5 : Memref sig .tc .vmem S8x1024 .f32) (h5 : a5.IsWhole) (a6 : Memref sig .tc .vmem S8x1024 .f32) (h6 : a6.IsWhole)
    (hc : cond0_0 i) (x0 x1 : Vec F S512x1024 .f32) :
    out0_A_4 c i a2 h2 a3 h3 a4 h4 a5 h5 a6 h6 hc x0 x1 = k0_pay8 x1 k0_pay3 := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S8x1024) hz, View.readCov_unit_zero (S := S8x1024) _ hz]
  simp only [View.readAt_eq_ld, h2.read_unread, h3.read_unread, h4.read_unread, h5.read_unread, h6.read_unread,
    View.ld_unit_zero (S := S512x1024) hz, View.ld_unit_zero (S := S8x1024) hz]

end Cert.KernelIdeal.KVal

end
-- ==== Proof.KPay.lean ====
/-
  The body's arithmetic at an entry. At accumulator row i and lane j, each of the three stores' values is the block's
  previous entry plus the sum, over the 64 groups of 8 rows of the [512, 1024] input blocks, of the summand at row
  8·k + i, lane j: the product yt·yp for the first accumulator, yp for the second, yt for the third.
-/
import proofs.«138703_g2000304976040598_pallasbulk_888_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

/-- Row 8·k + i of a 512-row block: row i of its k-th group of 8 rows. -/
abbrev row (k : Fin 64) (i : Fin 8) : Fin 512 := ⟨8 * k.val + i.val, by omega⟩

/-- The fold of a [512, 1024] block over its 64 groups of 8 rows, at row i and lane j: the sum over the groups of the
    block's entry at row 8·k + i (the cast to [64, 8, 1024] keeps the row-major position). -/
theorem fold_apply (v : FVec Ideal S512x1024 .f32) (hφ : FKind.Formats .f32)
    (hacc : (0x00000000#32 : BitVec 32) = FKind.add.neutral .f32 hφ) (i : Fin 8) (j : Fin 1024) :
    multiReduction (F := Ideal) .add [0] S8x1024 (shapeCast S64x8x1024 v Facts₀.shapeCasts_S512x1024_S64x8x1024) 0x00000000#32
      Facts₀.reduces_S64x8x1024_S8x1024 hφ hacc (ix2 i j) = ∑ k : Fin 64, v (ix2 (row k i) j) := by
  refine (Ideal.multiReduction_add_single _ 0x00000000#32 Facts₀.reduces_S64x8x1024_S8x1024 hφ hacc (ix2 i j)).trans ?_
  refine Finset.sum_congr rfl fun k _ => ?_
  refine shapeCast_apply v _ _ _ ?_
  rw [Shape.rowMajor_val_two, Shape.rowMajor_val_three]
  show (8 * k.val + i.val) * 1024 + j.val = (k.val * 8 + i.val) * 1024 + j.val
  omega

/-- The first accumulator's store: the previous entry plus Σ_k yt·yp at row 8·k + i. -/
theorem pay6_apply (x0 x1 : Vec Ideal S512x1024 .f32) (acc : Vec Ideal S8x1024 .f32) (i : Fin 8) (j : Fin 1024) :
    k0_pay6 (F := Ideal) x0 x1 acc (ix2 i j)
      = acc (ix2 i j) + ∑ k : Fin 64, x1 (ix2 (row k i) j) * x0 (ix2 (row k i) j) := by
  unfold k0_pay6 k0_pay5 k0_pay4
  exact congrArg₂ (· + ·) (congrFun (shapeCast_self acc _) (ix2 i j))
    ((fold_apply _ _ _ i j).trans (Finset.sum_congr rfl fun k _ =>
      congrArg₂ (· * ·) (congrFun (shapeCast_self x1 _) _) (congrFun (shapeCast_self x0 _) _)))

/-- The second accumulator's store: the previous entry plus Σ_k yp at row 8·k + i. -/
theorem pay7_apply (x0 : Vec Ideal S512x1024 .f32) (acc : Vec Ideal S8x1024 .f32) (i : Fin 8) (j : Fin 1024) :
    k0_pay7 (F := Ideal) x0 acc (ix2 i j) = acc (ix2 i j) + ∑ k : Fin 64, x0 (ix2 (row k i) j) := by
  unfold k0_pay7 k0_pay4
  exact congrArg₂ (· + ·) (congrFun (shapeCast_self acc _) (ix2 i j))
    ((fold_apply _ _ _ i j).trans (Finset.sum_congr rfl fun k _ => congrFun (shapeCast_self x0 _) _))

/-- The third accumulator's store: the previous entry plus Σ_k yt at row 8·k + i. -/
theorem pay8_apply (x1 : Vec Ideal S512x1024 .f32) (acc : Vec Ideal S8x1024 .f32) (i : Fin 8) (j : Fin 1024) :
    k0_pay8 (F := Ideal) x1 acc (ix2 i j) = acc (ix2 i j) + ∑ k : Fin 64, x1 (ix2 (row k i) j) := by
  unfold k0_pay8 k0_pay5
  exact congrArg₂ (· + ·) (congrFun (shapeCast_self acc _) (ix2 i j))
    ((fold_apply _ _ _ i j).trans (Finset.sum_congr rfl fun k _ => congrFun (shapeCast_self x1 _) _))

/-- The zero block a run's first point stores is zero at every entry. -/
theorem pay1_apply (y : S8x1024.Idx) : k0_pay1 (F := Ideal) y = 0 := by
  unfold k0_pay1
  show Ideal.ofBits .f32 0x00000000#32 = 0
  exact Ideal.ofBits_zero_f32
theorem pay2_apply (y : S8x1024.Idx) : k0_pay2 (F := Ideal) y = 0 := by
  unfold k0_pay2
  show Ideal.ofBits .f32 0x00000000#32 = 0
  exact Ideal.ofBits_zero_f32
theorem pay3_apply (y : S8x1024.Idx) : k0_pay3 (F := Ideal) y = 0 := by
  unfold k0_pay3
  show Ideal.ofBits .f32 0x00000000#32 = 0
  exact Ideal.ofBits_zero_f32

end Cert.KernelIdeal.KVal

end
-- ==== Proof.KBlocks.lean ====
/-
  The arrays the grid reads, and its blocks. The two inputs of the region are the arguments themselves (each is
  flattened and cut back to [16384, 1024], which keeps every row-major position), and input block t of either is rows
  512·t … 512·t + 511 of it; output block t of each accumulator array is rows 8·(t / 16) … 8·(t / 16) + 7.
-/
import proofs.«138703_g2000304976040598_pallasbulk_888_2_alg».proof.Proof.Gen.KernelIdeal.Frame
import Idealize.ShloMosaic.Lib.Pipeline.Value
import Idealize.ShloMosaic.Lib.StableHlo.Run
import Idealize.ShloMosaic.Lib.Tactic
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

variable {F : FTy → Type} [FloatOps F]
variable (m : (ℓ : Loc nD τ sig) → Buf (Elt F) ℓ)

/-- The first input of the region is the first argument: reshaped to one long vector and back. -/
theorem V_v2 (c : Dev nD) : (V m c main_v2 : S16384x1024.Idx → Elt F .f32) = m ((c : Thread nD τ).loc main_arg0) := by
  show StableHlo.after hostOps0 (fun b => m (c, b)) (Proc.devRef .tc main_v2) = _
  after_results
  exact shapeCast_shapeCast (m (c, Proc.tc.devRef main_arg0)) Facts₀.shapeCasts_S16384x1024_S16777216 Facts₀.shapeCasts_S16777216_S16384x1024

/-- The second input of the region is the second argument. -/
theorem V_v3 (c : Dev nD) : (V m c main_v3 : S16384x1024.Idx → Elt F .f32) = m ((c : Thread nD τ).loc main_arg1) := by
  show StableHlo.after hostOps0 (fun b => m (c, b)) (Proc.devRef .tc main_v3) = _
  after_results
  exact shapeCast_shapeCast (m (c, Proc.tc.devRef main_arg1)) Facts₀.shapeCasts_S16384x1024_S16777216 Facts₀.shapeCasts_S16777216_S16384x1024

/-- The block each window is at, at every grid point: the inputs at block row t, the accumulators at block row t / 16. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val / 16 ∧ win0_2.index t (1 : Fin 2) = 0
    ∧ win0_3.index t (0 : Fin 2) = t.val / 16 ∧ win0_3.index t (1 : Fin 2) = 0
    ∧ win0_4.index t (0 : Fin 2) = t.val / 16 ∧ win0_4.index t (1 : Fin 2) = 0 :=
  (by decide +kernel : ∀ t : Fin grid0.N, _)

/-- Entry (p, q) of the first input's block at point t is entry (512·t + p, q) of that input. -/
theorem iblk0_apply (c : Dev nD) (t : Fin cfg0.N) (p : Fin 512) (q : Fin 1024) :
    (iblk m c 0 t : Vec F S512x1024 .f32) (ix2 p q)
      = V m c main_v2 (ix2 ⟨512 * t.val + p.val, by have := t.isLt; have : cfg0.N = 32 := N_0; omega⟩ q) := by
  obtain ⟨e0, e1, -⟩ := idx_facts t
  unfold iblk
  rw [View.read_apply]
  show V m c main_v2 _ = V m c main_v2 _
  congr 1
  funext a
  apply Fin.ext
  match a with
  | ⟨0, _⟩ => show win0_0.index t (0 : Fin 2) * 512 + 1 * p.val = 512 * t.val + p.val; rw [e0]; omega
  | ⟨1, _⟩ => show win0_0.index t (1 : Fin 2) * 1024 + 1 * q.val = q.val; rw [e1]; omega

/-- Entry (p, q) of the second input's block at point t is entry (512·t + p, q) of that input. -/
theorem iblk1_apply (c : Dev nD) (t : Fin cfg0.N) (p : Fin 512) (q : Fin 1024) :
    (iblk m c 1 t : Vec F S512x1024 .f32) (ix2 p q)
      = V m c main_v3 (ix2 ⟨512 * t.val + p.val, by have := t.isLt; have : cfg0.N = 32 := N_0; omega⟩ q) := by
  obtain ⟨-, -, e0, e1, -⟩ := idx_facts t
  unfold iblk
  rw [View.read_apply]
  show V m c main_v3 _ = V m c main_v3 _
  congr 1
  funext a
  apply Fin.ext
  match a with
  | ⟨0, _⟩ => show win0_1.index t (0 : Fin 2) * 512 + 1 * p.val = 512 * t.val + p.val; rw [e0]; omega
  | ⟨1, _⟩ => show win0_1.index t (1 : Fin 2) * 1024 + 1 * q.val = q.val; rw [e1]; omega

end Cert.KernelIdeal.KVal

end
-- ==== Proof.KAcc.lean ====
/-
  The accumulation over a run of sixteen grid points. Each accumulator block is reset at the first point of a run
  (t % 16 = 0) and otherwise adds its point's fold to what the point before left, so at the run's last point, entry
  (i, j) of the block holds the sum over the run's sixteen points s, and over the 64 row groups k of each point's
  block, of the summand at row 512·(16·(t / 16) + s) + 8·k + i, lane j.
-/
import proofs.«138703_g2000304976040598_pallasbulk_888_2_alg».proof.Proof.KPieces
import proofs.«138703_g2000304976040598_pallasbulk_888_2_alg».proof.Proof.KPay
import proofs.«138703_g2000304976040598_pallasbulk_888_2_alg».proof.Proof.KBlocks
import proofs.«138703_g2000304976040598_pallasbulk_888_2_alg».proof.Proof.Spec

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx
open Cert.SoftF1 (ext)

variable (m : (ℓ : Loc nD τ sig) → Buf (Elt Ideal) ℓ)

/-- The first argument (y_pred) on core c. -/
abbrev YP (c : Dev nD) : Cert.SoftF1.SIn.Idx → Ideal .f32 := m ((c : Thread nD τ).loc main_arg0)
/-- The second argument (y_true) on core c. -/
abbrev YT (c : Dev nD) : Cert.SoftF1.SIn.Idx → Ideal .f32 := m ((c : Thread nD τ).loc main_arg1)

/-- An array read at in-range natural-number coordinates is the array at that index. -/
theorem ext_of_lt (A : Cert.SoftF1.SIn.Idx → Ideal .f32) (R j : ℕ) (hR : R < 16384) (hj : j < 1024) :
    ext A R j = A (ix2 ⟨R, hR⟩ ⟨j, hj⟩) := by
  unfold Cert.SoftF1.ext
  rw [dif_pos ⟨hR, hj⟩]

/-- What point n adds to entry y of accumulator 0: over the 64 row groups of block n, the summand at row 8·k + y₀. -/
def add2 (c : Dev nD) (n : ℕ) (y : S8x1024.Idx) : Ideal .f32 :=
  ∑ k : Fin 64, ext (fun i => YT m c i * YP m c i) (512 * n + (8 * k.val + (y 0).val)) (y 1).val

/-- Point t's store into accumulator 0, as a function of what the block held before. -/
def stepF2 (c : Dev nD) (t : Fin cfg0.N) (acc : Vec Ideal S8x1024 .f32) : Vec Ideal S8x1024 .f32 :=
  k0_pay6 (F := Ideal) (iblk m c 0 t) (iblk m c 1 t) acc

/-- One point's store into accumulator 0, at an entry: the entry before plus the point's addend. -/
theorem step2 (c : Dev nD) (t : Fin cfg0.N) (acc : Vec Ideal S8x1024 .f32) (y : S8x1024.Idx) :
    stepF2 m c t acc y = acc y + add2 m c t.val y := by
  have hN : cfg0.N = 32 := N_0
  have ht : t.val < 32 := hN ▸ t.isLt
  unfold stepF2
  obtain ⟨i, j, rfl⟩ : ∃ (i : Fin 8) (j : Fin 1024), y = ix2 i j := ⟨y 0, y 1, eq_ix2 y⟩
  refine (pay6_apply _ _ acc i j).trans ?_
  refine congrArg (acc (ix2 i j) + ·) (Finset.sum_congr rfl fun k _ => ?_)
  rw [iblk1_apply, iblk0_apply, V_v3, V_v2]
  exact (ext_of_lt (fun i => YT m c i * YP m c i) _ _ (by omega) j.isLt).symm

/-- Accumulator 0 at the first point of a run. -/
theorem resetT2 (c : Dev nD) (t : Fin cfg0.N) (hm : t.val % 16 = 0) :
    (outsAt0 m c t.val t.isLt).1 = stepF2 m c t (k0_pay1 (F := Ideal)) := by
  rw [outsAt0_A m c t hm]
  dsimp only
  unfold stepF2
  exact out_A_2 (F := Ideal) c (grid0.coords t) (ms0_0 t) (hs0_0 t) (ms0_1 t) (hs0_1 t) (ms0_2 t) (hs0_2 t) (ms0_3 t) (hs0_3 t) (ms0_4 t) (hs0_4 t) ((hcond0_0 t).mpr hm) (iblk m c 0 t) (iblk m c 1 t)

/-- Accumulator 0 at a later point of a run, from what the point before left. -/
theorem laterT2 (c : Dev nD) (t : Fin cfg0.N) (hm : ¬t.val % 16 = 0) :
    (outsAt0 m c t.val t.isLt).1 = stepF2 m c t (outsAt0 m c (t.val - 1) (Nat.lt_of_le_of_lt (Nat.sub_le _ _) t.isLt)).1 := by
  rw [outsAt0_B m c t hm]
  dsimp only
  unfold stepF2
  exact out_B_2 (F := Ideal) c (grid0.coords t) (ms0_0 t) (hs0_0 t) (ms0_1 t) (hs0_1 t) (ms0_2 t) (hs0_2 t) (ms0_3 t) (hs0_3 t) (ms0_4 t) (hs0_4 t) (fun hh => hm ((hcond0_0 t).mp hh)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2

/-- Accumulator 0 at the last point of a run: the sum of the run's sixteen addends. -/
theorem acc2 (c : Dev nD) (t : Fin cfg0.N) (ht : t.val % 16 = 15) (y : S8x1024.Idx) :
    (outsAt0 m c t.val t.isLt).1 y = 0 + ∑ s ∈ Finset.range 16, add2 m c (16 * (t.val / 16) + s) y := by
  have hN : cfg0.N = 32 := N_0
  have h' : 16 * (t.val / 16) + t.val % 16 < cfg0.N := by rw [Nat.div_add_mod]; exact t.isLt
  refine (congrFun (Pipeline.eq_accAt_of_mod (fun n h => (outsAt0 m c n h).1) 16
    (fun n h => stepF2 m c ⟨n, h⟩ (k0_pay1 (F := Ideal)))
    (fun n h acc => stepF2 m c ⟨n, h⟩ acc)
    (fun n h hm => resetT2 m c ⟨n, h⟩ hm) (fun n h hm => laterT2 m c ⟨n + 1, h⟩ hm) (by norm_num) t.val t.isLt h') y).trans ?_
  refine (Pipeline.accAt_add_apply _ _ (fun _ => (0 : Ideal .f32)) (add2 m c) (16 * (t.val / 16)) 15
    (fun h i => (step2 m c ⟨_, h⟩ _ i).trans (congrArg (· + add2 m c _ i) (pay1_apply i)))
    (fun n h acc i _ _ => step2 m c ⟨n, h⟩ acc i) (t.val % 16) (by omega) h' y).trans ?_
  rw [ht]

/-- What point n adds to entry y of accumulator 1: over the 64 row groups of block n, the summand at row 8·k + y₀. -/
def add3 (c : Dev nD) (n : ℕ) (y : S8x1024.Idx) : Ideal .f32 :=
  ∑ k : Fin 64, ext (YP m c) (512 * n + (8 * k.val + (y 0).val)) (y 1).val

/-- Point t's store into accumulator 1, as a function of what the block held before. -/
def stepF3 (c : Dev nD) (t : Fin cfg0.N) (acc : Vec Ideal S8x1024 .f32) : Vec Ideal S8x1024 .f32 :=
  k0_pay7 (F := Ideal) (iblk m c 0 t) acc

/-- One point's store into accumulator 1, at an entry: the entry before plus the point's addend. -/
theorem step3 (c : Dev nD) (t : Fin cfg0.N) (acc : Vec Ideal S8x1024 .f32) (y : S8x1024.Idx) :
    stepF3 m c t acc y = acc y + add3 m c t.val y := by
  have hN : cfg0.N = 32 := N_0
  have ht : t.val < 32 := hN ▸ t.isLt
  unfold stepF3
  obtain ⟨i, j, rfl⟩ : ∃ (i : Fin 8) (j : Fin 1024), y = ix2 i j := ⟨y 0, y 1, eq_ix2 y⟩
  refine (pay7_apply _ acc i j).trans ?_
  refine congrArg (acc (ix2 i j) + ·) (Finset.sum_congr rfl fun k _ => ?_)
  rw [iblk0_apply, V_v2]
  exact (ext_of_lt (YP m c) _ _ (by omega) j.isLt).symm

/-- Accumulator 1 at the first point of a run. -/
theorem resetT3 (c : Dev nD) (t : Fin cfg0.N) (hm : t.val % 16 = 0) :
    (outsAt0 m c t.val t.isLt).2.1 = stepF3 m c t (k0_pay2 (F := Ideal)) := by
  rw [outsAt0_A m c t hm]
  dsimp only
  unfold stepF3
  exact out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr hm) (iblk m c 0 t) (iblk m c 1 t)

/-- Accumulator 1 at a later point of a run, from what the point before left. -/
theorem laterT3 (c : Dev nD) (t : Fin cfg0.N) (hm : ¬t.val % 16 = 0) :
    (outsAt0 m c t.val t.isLt).2.1 = stepF3 m c t (outsAt0 m c (t.val - 1) (Nat.lt_of_le_of_lt (Nat.sub_le _ _) t.isLt)).2.1 := by
  rw [outsAt0_B m c t hm]
  dsimp only
  unfold stepF3
  exact out_B_3 (F := Ideal) c (grid0.coords t) (ms0_0 t) (hs0_0 t) (ms0_1 t) (hs0_1 t) (ms0_2 t) (hs0_2 t) (ms0_3 t) (hs0_3 t) (ms0_4 t) (hs0_4 t) (fun hh => hm ((hcond0_0 t).mp hh)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2

/-- Accumulator 1 at the last point of a run: the sum of the run's sixteen addends. -/
theorem acc3 (c : Dev nD) (t : Fin cfg0.N) (ht : t.val % 16 = 15) (y : S8x1024.Idx) :
    (outsAt0 m c t.val t.isLt).2.1 y = 0 + ∑ s ∈ Finset.range 16, add3 m c (16 * (t.val / 16) + s) y := by
  have hN : cfg0.N = 32 := N_0
  have h' : 16 * (t.val / 16) + t.val % 16 < cfg0.N := by rw [Nat.div_add_mod]; exact t.isLt
  refine (congrFun (Pipeline.eq_accAt_of_mod (fun n h => (outsAt0 m c n h).2.1) 16
    (fun n h => stepF3 m c ⟨n, h⟩ (k0_pay2 (F := Ideal)))
    (fun n h acc => stepF3 m c ⟨n, h⟩ acc)
    (fun n h hm => resetT3 m c ⟨n, h⟩ hm) (fun n h hm => laterT3 m c ⟨n + 1, h⟩ hm) (by norm_num) t.val t.isLt h') y).trans ?_
  refine (Pipeline.accAt_add_apply _ _ (fun _ => (0 : Ideal .f32)) (add3 m c) (16 * (t.val / 16)) 15
    (fun h i => (step3 m c ⟨_, h⟩ _ i).trans (congrArg (· + add3 m c _ i) (pay2_apply i)))
    (fun n h acc i _ _ => step3 m c ⟨n, h⟩ acc i) (t.val % 16) (by omega) h' y).trans ?_
  rw [ht]

/-- What point n adds to entry y of accumulator 2: over the 64 row groups of block n, the summand at row 8·k + y₀. -/
def add4 (c : Dev nD) (n : ℕ) (y : S8x1024.Idx) : Ideal .f32 :=
  ∑ k : Fin 64, ext (YT m c) (512 * n + (8 * k.val + (y 0).val)) (y 1).val

/-- Point t's store into accumulator 2, as a function of what the block held before. -/
def stepF4 (c : Dev nD) (t : Fin cfg0.N) (acc : Vec Ideal S8x1024 .f32) : Vec Ideal S8x1024 .f32 :=
  k0_pay8 (F := Ideal) (iblk m c 1 t) acc

/-- One point's store into accumulator 2, at an entry: the entry before plus the point's addend. -/
theorem step4 (c : Dev nD) (t : Fin cfg0.N) (acc : Vec Ideal S8x1024 .f32) (y : S8x1024.Idx) :
    stepF4 m c t acc y = acc y + add4 m c t.val y := by
  have hN : cfg0.N = 32 := N_0
  have ht : t.val < 32 := hN ▸ t.isLt
  unfold stepF4
  obtain ⟨i, j, rfl⟩ : ∃ (i : Fin 8) (j : Fin 1024), y = ix2 i j := ⟨y 0, y 1, eq_ix2 y⟩
  refine (pay8_apply _ acc i j).trans ?_
  refine congrArg (acc (ix2 i j) + ·) (Finset.sum_congr rfl fun k _ => ?_)
  rw [iblk1_apply, V_v3]
  exact (ext_of_lt (YT m c) _ _ (by omega) j.isLt).symm

/-- Accumulator 2 at the first point of a run. -/
theorem resetT4 (c : Dev nD) (t : Fin cfg0.N) (hm : t.val % 16 = 0) :
    (outsAt0 m c t.val t.isLt).2.2 = stepF4 m c t (k0_pay3 (F := Ideal)) := by
  rw [outsAt0_A m c t hm]
  dsimp only
  unfold stepF4
  exact out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr hm) (iblk m c 0 t) (iblk m c 1 t)

/-- Accumulator 2 at a later point of a run, from what the point before left. -/
theorem laterT4 (c : Dev nD) (t : Fin cfg0.N) (hm : ¬t.val % 16 = 0) :
    (outsAt0 m c t.val t.isLt).2.2 = stepF4 m c t (outsAt0 m c (t.val - 1) (Nat.lt_of_le_of_lt (Nat.sub_le _ _) t.isLt)).2.2 := by
  rw [outsAt0_B m c t hm]
  dsimp only
  unfold stepF4
  exact out_B_4 (F := Ideal) c (grid0.coords t) (ms0_0 t) (hs0_0 t) (ms0_1 t) (hs0_1 t) (ms0_2 t) (hs0_2 t) (ms0_3 t) (hs0_3 t) (ms0_4 t) (hs0_4 t) (fun hh => hm ((hcond0_0 t).mp hh)) (iblk m c 0 t) (iblk m c 1 t)
    (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2

/-- Accumulator 2 at the last point of a run: the sum of the run's sixteen addends. -/
theorem acc4 (c : Dev nD) (t : Fin cfg0.N) (ht : t.val % 16 = 15) (y : S8x1024.Idx) :
    (outsAt0 m c t.val t.isLt).2.2 y = 0 + ∑ s ∈ Finset.range 16, add4 m c (16 * (t.val / 16) + s) y := by
  have hN : cfg0.N = 32 := N_0
  have h' : 16 * (t.val / 16) + t.val % 16 < cfg0.N := by rw [Nat.div_add_mod]; exact t.isLt
  refine (congrFun (Pipeline.eq_accAt_of_mod (fun n h => (outsAt0 m c n h).2.2) 16
    (fun n h => stepF4 m c ⟨n, h⟩ (k0_pay3 (F := Ideal)))
    (fun n h acc => stepF4 m c ⟨n, h⟩ acc)
    (fun n h hm => resetT4 m c ⟨n, h⟩ hm) (fun n h hm => laterT4 m c ⟨n + 1, h⟩ hm) (by norm_num) t.val t.isLt h') y).trans ?_
  refine (Pipeline.accAt_add_apply _ _ (fun _ => (0 : Ideal .f32)) (add4 m c) (16 * (t.val / 16)) 15
    (fun h i => (step4 m c ⟨_, h⟩ _ i).trans (congrArg (· + add4 m c _ i) (pay3_apply i)))
    (fun n h acc i _ _ => step4 m c ⟨n, h⟩ acc i) (t.val % 16) (by omega) h' y).trans ?_
  rw [ht]

end Cert.KernelIdeal.KVal

end
-- ==== Proof.KFinal.lean ====
/-
  The three accumulator arrays after the grid. Each [16, 1024] array is written back in two blocks of 8 rows, block q
  at the last point of run q (t = 16·q + 15), and every entry lies in one of them; so entry (r, j) of the array holds
  the sum over the sixteen points s of run r / 8, and over the 64 row groups k of each point's block, of the summand at
  row 512·(16·(r / 8) + s) + 8·k + r % 8, lane j.
-/
import proofs.«138703_g2000304976040598_pallasbulk_888_2_alg».proof.Proof.KAcc

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx
open Cert.SoftF1 (ext)

variable (m : (ℓ : Loc nD τ sig) → Buf (Elt Ideal) ℓ)

/-- Accumulator array 0 as one function of the arguments. -/
def G2 (c : Dev nD) : S16x1024.Idx → Ideal .f32 := fun y =>
  0 + ∑ s ∈ Finset.range 16, ∑ k : Fin 64,
    ext (fun i => YT m c i * YP m c i) (512 * (16 * ((y 0).val / 8) + s) + (8 * k.val + (y 0).val % 8)) (y 1).val

/-- What the last point of a run writes back is that run's block of `G2`. -/
theorem flushed2_eq (c : Dev nD) (t : Fin cfg0.N) (hf : (cfg0.win 2).flush t = true) :
    (dats m 0 c).flushed 2 t = ((cfg0.win 2).blk t).view.read (Elt Ideal) (G2 m c) := by
  have ht : t.val % 16 = 15 := (flush0_2 t).mp hf
  obtain ⟨-, -, -, -, e0, e1, -⟩ := idx_facts t
  show (cfg0.win 2).cut (grid0.coords t) ((dats m 0 c).after 2 t) = _
  rw [after0_2]
  funext y
  rw [View.read_apply]
  refine (acc2 m c t ht y).trans ?_
  have h0 : ((((cfg0.win 2).blk t).view.emb y) 0).val = 8 * (t.val / 16) + (y 0).val := by
    show win0_2.index t (0 : Fin 2) * 8 + 1 * (y 0).val = _
    rw [e0]; omega
  have h1 : ((((cfg0.win 2).blk t).view.emb y) 1).val = (y 1).val := by
    show win0_2.index t (1 : Fin 2) * 1024 + 1 * (y 1).val = _
    rw [e1]; omega
  have hy : (y 0).val < 8 := (y 0).isLt
  show 0 + ∑ s ∈ Finset.range 16, add2 m c (16 * (t.val / 16) + s) y = G2 m c _
  unfold G2 add2
  rw [h0, h1, show (8 * (t.val / 16) + (y 0).val) / 8 = t.val / 16 by omega,
    show (8 * (t.val / 16) + (y 0).val) % 8 = (y 0).val by omega]

/-- An entry of the array is in point t's block iff each coordinate is in the block's range. -/
theorem mem_blk2 (t : Fin cfg0.N) (i : S16x1024.Idx) :
    i ∈ ((cfg0.win 2).blk t).view.set ↔ ∀ a : Fin 2, win0_2.index t a * S8x1024.size a ≤ (i a).val
      ∧ (i a).val < win0_2.index t a * S8x1024.size a + S8x1024.size a := by
  show i ∈ ((View.whole main_v4_0).slice (win0_2.rect t)).set ↔ _
  rw [View.set_slice_whole, Rect.mem_set_unit]
  exact Iff.rfl

/-- Every entry is in the block some run's last point writes back: row r is in block r / 8. -/
theorem cover2 (i : S16x1024.Idx) :
    ∃ t : Fin cfg0.N, (cfg0.win 2).flush t = true ∧ i ∈ ((cfg0.win 2).blk t).view.set := by
  have hN : cfg0.N = 32 := N_0
  have hi0 : (i 0).val < 16 := (i 0).isLt
  have hi1 : (i 1).val < 1024 := (i 1).isLt
  have hlt : 16 * ((i 0).val / 8) + 15 < cfg0.N := by omega
  refine ⟨⟨16 * ((i 0).val / 8) + 15, hlt⟩, (flush0_2 _).mpr (by show (16 * ((i 0).val / 8) + 15) % 16 = 15; omega), ?_⟩
  rw [mem_blk2]
  obtain ⟨-, -, -, -, e0, e1, -⟩ := idx_facts ⟨16 * ((i 0).val / 8) + 15, hlt⟩
  have e0' : win0_2.index ⟨16 * ((i 0).val / 8) + 15, hlt⟩ (0 : Fin 2) = (16 * ((i 0).val / 8) + 15) / 16 := e0
  intro a
  match a with
  | ⟨0, _⟩ =>
    show win0_2.index ⟨16 * ((i 0).val / 8) + 15, hlt⟩ (0 : Fin 2) * 8 ≤ (i 0).val
      ∧ (i 0).val < win0_2.index ⟨16 * ((i 0).val / 8) + 15, hlt⟩ (0 : Fin 2) * 8 + 8
    rw [e0']; omega
  | ⟨1, _⟩ =>
    show win0_2.index ⟨16 * ((i 0).val / 8) + 15, hlt⟩ (1 : Fin 2) * 1024 ≤ (i 1).val
      ∧ (i 1).val < win0_2.index ⟨16 * ((i 0).val / 8) + 15, hlt⟩ (1 : Fin 2) * 1024 + 1024
    rw [e1]; omega

/-- Accumulator array 0 after the grid. -/
theorem final2 (c : Dev nD) : (dats m 0 c).arrAt 2 cfg0.N = G2 m c :=
  (dats m 0 c).arrAt_eq_of_cover 2 (G2 m c) (flushed2_eq m c) cover2

/-- Accumulator array 1 as one function of the arguments. -/
def G3 (c : Dev nD) : S16x1024.Idx → Ideal .f32 := fun y =>
  0 + ∑ s ∈ Finset.range 16, ∑ k : Fin 64,
    ext (YP m c) (512 * (16 * ((y 0).val / 8) + s) + (8 * k.val + (y 0).val % 8)) (y 1).val

/-- What the last point of a run writes back is that run's block of `G3`. -/
theorem flushed3_eq (c : Dev nD) (t : Fin cfg0.N) (hf : (cfg0.win 3).flush t = true) :
    (dats m 0 c).flushed 3 t = ((cfg0.win 3).blk t).view.read (Elt Ideal) (G3 m c) := by
  have ht : t.val % 16 = 15 := (flush0_3 t).mp hf
  obtain ⟨-, -, -, -, -, -, e0, e1, -⟩ := idx_facts t
  show (cfg0.win 3).cut (grid0.coords t) ((dats m 0 c).after 3 t) = _
  rw [after0_3]
  funext y
  rw [View.read_apply]
  refine (acc3 m c t ht y).trans ?_
  have h0 : ((((cfg0.win 3).blk t).view.emb y) 0).val = 8 * (t.val / 16) + (y 0).val := by
    show win0_3.index t (0 : Fin 2) * 8 + 1 * (y 0).val = _
    rw [e0]; omega
  have h1 : ((((cfg0.win 3).blk t).view.emb y) 1).val = (y 1).val := by
    show win0_3.index t (1 : Fin 2) * 1024 + 1 * (y 1).val = _
    rw [e1]; omega
  have hy : (y 0).val < 8 := (y 0).isLt
  show 0 + ∑ s ∈ Finset.range 16, add3 m c (16 * (t.val / 16) + s) y = G3 m c _
  unfold G3 add3
  rw [h0, h1, show (8 * (t.val / 16) + (y 0).val) / 8 = t.val / 16 by omega,
    show (8 * (t.val / 16) + (y 0).val) % 8 = (y 0).val by omega]

/-- An entry of the array is in point t's block iff each coordinate is in the block's range. -/
theorem mem_blk3 (t : Fin cfg0.N) (i : S16x1024.Idx) :
    i ∈ ((cfg0.win 3).blk t).view.set ↔ ∀ a : Fin 2, win0_3.index t a * S8x1024.size a ≤ (i a).val
      ∧ (i a).val < win0_3.index t a * S8x1024.size a + S8x1024.size a := by
  show i ∈ ((View.whole main_v4_1).slice (win0_3.rect t)).set ↔ _
  rw [View.set_slice_whole, Rect.mem_set_unit]
  exact Iff.rfl

/-- Every entry is in the block some run's last point writes back: row r is in block r / 8. -/
theorem cover3 (i : S16x1024.Idx) :
    ∃ t : Fin cfg0.N, (cfg0.win 3).flush t = true ∧ i ∈ ((cfg0.win 3).blk t).view.set := by
  have hN : cfg0.N = 32 := N_0
  have hi0 : (i 0).val < 16 := (i 0).isLt
  have hi1 : (i 1).val < 1024 := (i 1).isLt
  have hlt : 16 * ((i 0).val / 8) + 15 < cfg0.N := by omega
  refine ⟨⟨16 * ((i 0).val / 8) + 15, hlt⟩, (flush0_3 _).mpr (by show (16 * ((i 0).val / 8) + 15) % 16 = 15; omega), ?_⟩
  rw [mem_blk3]
  obtain ⟨-, -, -, -, -, -, e0, e1, -⟩ := idx_facts ⟨16 * ((i 0).val / 8) + 15, hlt⟩
  have e0' : win0_3.index ⟨16 * ((i 0).val / 8) + 15, hlt⟩ (0 : Fin 2) = (16 * ((i 0).val / 8) + 15) / 16 := e0
  intro a
  match a with
  | ⟨0, _⟩ =>
    show win0_3.index ⟨16 * ((i 0).val / 8) + 15, hlt⟩ (0 : Fin 2) * 8 ≤ (i 0).val
      ∧ (i 0).val < win0_3.index ⟨16 * ((i 0).val / 8) + 15, hlt⟩ (0 : Fin 2) * 8 + 8
    rw [e0']; omega
  | ⟨1, _⟩ =>
    show win0_3.index ⟨16 * ((i 0).val / 8) + 15, hlt⟩ (1 : Fin 2) * 1024 ≤ (i 1).val
      ∧ (i 1).val < win0_3.index ⟨16 * ((i 0).val / 8) + 15, hlt⟩ (1 : Fin 2) * 1024 + 1024
    rw [e1]; omega

/-- Accumulator array 1 after the grid. -/
theorem final3 (c : Dev nD) : (dats m 0 c).arrAt 3 cfg0.N = G3 m c :=
  (dats m 0 c).arrAt_eq_of_cover 3 (G3 m c) (flushed3_eq m c) cover3

/-- Accumulator array 2 as one function of the arguments. -/
def G4 (c : Dev nD) : S16x1024.Idx → Ideal .f32 := fun y =>
  0 + ∑ s ∈ Finset.range 16, ∑ k : Fin 64,
    ext (YT m c) (512 * (16 * ((y 0).val / 8) + s) + (8 * k.val + (y 0).val % 8)) (y 1).val

/-- What the last point of a run writes back is that run's block of `G4`. -/
theorem flushed4_eq (c : Dev nD) (t : Fin cfg0.N) (hf : (cfg0.win 4).flush t = true) :
    (dats m 0 c).flushed 4 t = ((cfg0.win 4).blk t).view.read (Elt Ideal) (G4 m c) := by
  have ht : t.val % 16 = 15 := (flush0_4 t).mp hf
  obtain ⟨-, -, -, -, -, -, -, -, e0, e1⟩ := idx_facts t
  show (cfg0.win 4).cut (grid0.coords t) ((dats m 0 c).after 4 t) = _
  rw [after0_4]
  funext y
  rw [View.read_apply]
  refine (acc4 m c t ht y).trans ?_
  have h0 : ((((cfg0.win 4).blk t).view.emb y) 0).val = 8 * (t.val / 16) + (y 0).val := by
    show win0_4.index t (0 : Fin 2) * 8 + 1 * (y 0).val = _
    rw [e0]; omega
  have h1 : ((((cfg0.win 4).blk t).view.emb y) 1).val = (y 1).val := by
    show win0_4.index t (1 : Fin 2) * 1024 + 1 * (y 1).val = _
    rw [e1]; omega
  have hy : (y 0).val < 8 := (y 0).isLt
  show 0 + ∑ s ∈ Finset.range 16, add4 m c (16 * (t.val / 16) + s) y = G4 m c _
  unfold G4 add4
  rw [h0, h1, show (8 * (t.val / 16) + (y 0).val) / 8 = t.val / 16 by omega,
    show (8 * (t.val / 16) + (y 0).val) % 8 = (y 0).val by omega]

/-- An entry of the array is in point t's block iff each coordinate is in the block's range. -/
theorem mem_blk4 (t : Fin cfg0.N) (i : S16x1024.Idx) :
    i ∈ ((cfg0.win 4).blk t).view.set ↔ ∀ a : Fin 2, win0_4.index t a * S8x1024.size a ≤ (i a).val
      ∧ (i a).val < win0_4.index t a * S8x1024.size a + S8x1024.size a := by
  show i ∈ ((View.whole main_v4_2).slice (win0_4.rect t)).set ↔ _
  rw [View.set_slice_whole, Rect.mem_set_unit]
  exact Iff.rfl

/-- Every entry is in the block some run's last point writes back: row r is in block r / 8. -/
theorem cover4 (i : S16x1024.Idx) :
    ∃ t : Fin cfg0.N, (cfg0.win 4).flush t = true ∧ i ∈ ((cfg0.win 4).blk t).view.set := by
  have hN : cfg0.N = 32 := N_0
  have hi0 : (i 0).val < 16 := (i 0).isLt
  have hi1 : (i 1).val < 1024 := (i 1).isLt
  have hlt : 16 * ((i 0).val / 8) + 15 < cfg0.N := by omega
  refine ⟨⟨16 * ((i 0).val / 8) + 15, hlt⟩, (flush0_4 _).mpr (by show (16 * ((i 0).val / 8) + 15) % 16 = 15; omega), ?_⟩
  rw [mem_blk4]
  obtain ⟨-, -, -, -, -, -, -, -, e0, e1⟩ := idx_facts ⟨16 * ((i 0).val / 8) + 15, hlt⟩
  have e0' : win0_4.index ⟨16 * ((i 0).val / 8) + 15, hlt⟩ (0 : Fin 2) = (16 * ((i 0).val / 8) + 15) / 16 := e0
  intro a
  match a with
  | ⟨0, _⟩ =>
    show win0_4.index ⟨16 * ((i 0).val / 8) + 15, hlt⟩ (0 : Fin 2) * 8 ≤ (i 0).val
      ∧ (i 0).val < win0_4.index ⟨16 * ((i 0).val / 8) + 15, hlt⟩ (0 : Fin 2) * 8 + 8
    rw [e0']; omega
  | ⟨1, _⟩ =>
    show win0_4.index ⟨16 * ((i 0).val / 8) + 15, hlt⟩ (1 : Fin 2) * 1024 ≤ (i 1).val
      ∧ (i 1).val < win0_4.index ⟨16 * ((i 0).val / 8) + 15, hlt⟩ (1 : Fin 2) * 1024 + 1024
    rw [e1]; omega

/-- Accumulator array 2 after the grid. -/
theorem final4 (c : Dev nD) : (dats m 0 c).arrAt 4 cfg0.N = G4 m c :=
  (dats m 0 c).arrAt_eq_of_cover 4 (G4 m c) (flushed4_eq m c) cover4

end Cert.KernelIdeal.KVal

end
-- ==== Proof.LibBlockSum.lean ====
/-
  Blocked sums and running accumulators, over any commutative additive monoid (the extended reals among them:
  their addition is commutative and associative with `0` neutral, so none of this asks for finiteness).

  * `sum_blocks`: a sum of `n * B` terms is the sum over `n` consecutive blocks of the `B` terms in each.
  * `acc`: an accumulator that starts at `0` and adds one summand per step; `acc_zero`, `acc_succ` are its
    two steps and `acc_last_blocks` says that after the last of `n` block sums it holds the whole sum.
-/
import Idealize.ShloMosaic.Lib.ValueIdx

namespace Cert.BlockSum

variable {M : Type*} [AddCommMonoid M]

/-- A sum over `Fin (n * B)` is the sum over the blocks `b : Fin n` of the sums over the positions
    `p : Fin B` inside a block, the term at `B * b + p`. -/
theorem sum_blocks (n B : ℕ) (f : ℕ → M) :
    ∑ k : Fin (n * B), f k.val = ∑ b : Fin n, ∑ p : Fin B, f (B * b.val + p.val) := by
  rw [← Finset.sum_product', Finset.univ_product_univ, ← Equiv.sum_comp finProdFinEquiv]
  refine Finset.sum_congr rfl (fun x _ => ?_)
  obtain ⟨b, p⟩ := x
  show f (p.val + B * b.val) = f (B * b.val + p.val)
  rw [Nat.add_comm]

/-- The accumulator after step `j`: `0`, then the summands `g 0 … g j` added in order. -/
def acc (g : ℕ → M) (j : ℕ) : M := 0 + ∑ b ∈ Finset.range (j + 1), g b

/-- After the first step the accumulator holds `0 + g 0`. -/
theorem acc_zero (g : ℕ → M) : acc g 0 = 0 + g 0 := by
  unfold acc
  rw [Finset.sum_range_one]

/-- Each later step adds its summand to what the step before left. -/
theorem acc_succ (g : ℕ → M) (j : ℕ) : acc g (j + 1) = acc g j + g (j + 1) := by
  unfold acc
  rw [Finset.sum_range_succ _ (j + 1), add_assoc]

/-- When the summands are the `n` block sums of `f`, the accumulator after the last block holds the whole sum. -/
theorem acc_last_blocks (n B : ℕ) (f : ℕ → M) :
    acc (fun b => ∑ p : Fin B, f (B * b + p.val)) n = ∑ k : Fin ((n + 1) * B), f k.val := by
  unfold acc
  rw [zero_add, Finset.sum_range (fun b => ∑ p : Fin B, f (B * b + p.val))]
  exact (sum_blocks (n + 1) B f).symm

end Cert.BlockSum
-- ==== Proof.Sums.lean ====
/-
  Tiled sums re-indexed: the sum over the per-core accumulators of the sums they gathered is the sum over the whole
  array. Over any commutative additive monoid (no finiteness is needed: only the order of summation changes).
-/
import proofs.«138703_g2000304976040598_pallasbulk_888_2_alg».proof.Proof.Spec
import proofs.«138703_g2000304976040598_pallasbulk_888_2_alg».proof.Proof.LibBlockSum

noncomputable section

open Idealize.ShloMosaic

namespace Cert.SoftF1

variable {M : Type*} [AddCommMonoid M]

/-- 2·(16·(h·8)) consecutive rows split four ways: half c, block s of the half, group k of eight rows in the
    block, row i of the group. -/
theorem sum_rows_split (h : ℕ) (G : ℕ → M) :
    ∑ R : Fin (2 * (16 * (h * 8))), G R.val
      = ∑ c : Fin 2, ∑ s : Fin 16, ∑ k : Fin h, ∑ i : Fin 8,
          G (16 * (h * 8) * c.val + (h * 8 * s.val + (8 * k.val + i.val))) := by
  rw [Cert.BlockSum.sum_blocks 2 (16 * (h * 8)) G]
  refine Finset.sum_congr rfl fun c _ => ?_
  rw [Cert.BlockSum.sum_blocks 16 (h * 8) (fun p => G (16 * (h * 8) * c.val + p))]
  refine Finset.sum_congr rfl fun s _ => ?_
  exact Cert.BlockSum.sum_blocks h 8 (fun q => G (16 * (h * 8) * c.val + (h * 8 * s.val + q)))

/-- Sixteen accumulator rows r = 8·c + i, read through r / 8 and r % 8, are the pairs (c, i). -/
theorem sum_accs_split (f : ℕ → ℕ → M) :
    ∑ r : Fin 16, f (r.val / 8) (r.val % 8) = ∑ c : Fin 2, ∑ i : Fin 8, f c.val i.val := by
  refine (Cert.BlockSum.sum_blocks 2 8 (fun r => f (r / 8) (r % 8))).trans ?_
  refine Finset.sum_congr rfl fun c _ => Finset.sum_congr rfl fun i _ => ?_
  have hi := i.isLt
  have h1 : (8 * c.val + i.val) / 8 = c.val := by omega
  have h2 : (8 * c.val + i.val) % 8 = i.val := by omega
  show f ((8 * c.val + i.val) / 8) ((8 * c.val + i.val) % 8) = f c.val i.val
  rw [h1, h2]

/-- N = 2·16·B rows of width W in 32 blocks of B = 8·h rows; block 16·c + s goes to core c at step s; within a
    block row 8·k + i goes to accumulator row i. Summing the accumulator rows r = 8·c + i sums the whole array. -/
theorem sum_tiles (h B N W : ℕ) (hB : B = h * 8) (hN : N = 2 * (16 * B)) (F : ℕ → ℕ → M) :
    ∑ r : Fin 16, ∑ j : Fin W, ∑ s ∈ Finset.range 16, ∑ k : Fin h,
        F (B * (16 * (r.val / 8) + s) + (8 * k.val + r.val % 8)) j.val
      = ∑ R : Fin N, ∑ j : Fin W, F R.val j.val := by
  subst hN hB
  rw [sum_rows_split h (fun R => ∑ j : Fin W, F R j.val)]
  rw [sum_accs_split (fun c i => ∑ j : Fin W, ∑ s ∈ Finset.range 16, ∑ k : Fin h,
        F (h * 8 * (16 * c + s) + (8 * k.val + i)) j.val)]
  refine Finset.sum_congr rfl fun c _ => ?_
  -- order (i, j, s, k) to (s, k, i, j)
  refine (Finset.sum_congr rfl fun i _ => Finset.sum_comm).trans ?_
  refine Finset.sum_comm.trans ?_
  refine (Finset.sum_congr rfl fun s _ => Finset.sum_congr rfl fun i _ => Finset.sum_comm).trans ?_
  refine (Finset.sum_congr rfl fun s _ => Finset.sum_comm).trans ?_
  rw [Finset.sum_range]
  refine Finset.sum_congr rfl fun s _ => Finset.sum_congr rfl fun k _ => Finset.sum_congr rfl fun i _ =>
    Finset.sum_congr rfl fun j _ => ?_
  have e : h * 8 * (16 * c.val + s.val) + (8 * k.val + i.val)
      = 16 * (h * 8) * c.val + (h * 8 * s.val + (8 * k.val + i.val)) := by ring
  rw [e]

/-- [16384, 1024] cut into 32 blocks of 512 rows; block 16·c + s goes to core c at step s; within a block row 8·k + i
    goes to accumulator row i. The accumulators are the 16 rows r = 8·c + i. -/
theorem sum_tiles_K (F : ℕ → ℕ → M) :
    ∑ r : Fin 16, ∑ j : Fin 1024, ∑ s ∈ Finset.range 16, ∑ k : Fin 64,
        F (512 * (16 * (r.val / 8) + s) + (8 * k.val + r.val % 8)) j.val
      = ∑ R : Fin 16384, ∑ j : Fin 1024, F R.val j.val :=
  sum_tiles 64 512 16384 1024 (by norm_num) (by norm_num) F

/-- [131072, 128] cut into 32 blocks of 4096 rows, the same way. -/
theorem sum_tiles_R (F : ℕ → ℕ → M) :
    ∑ r : Fin 16, ∑ l : Fin 128, ∑ s ∈ Finset.range 16, ∑ k : Fin 512,
        F (4096 * (16 * (r.val / 8) + s) + (8 * k.val + r.val % 8)) l.val
      = ∑ R : Fin 131072, ∑ l : Fin 128, F R.val l.val :=
  sum_tiles 512 4096 131072 128 (by norm_num) (by norm_num) F

/-- n·8 rows of b lanes are n rows of 8·b lanes, each cut into 8 pieces: row R' holds row R'/8, lanes
    b·(R' % 8) … b·(R' % 8) + b − 1. -/
theorem sum_reshape (n b N K : ℕ) (hN : N = n * 8) (hK : K = 8 * b) (H : ℕ → ℕ → M) :
    ∑ R : Fin N, ∑ l : Fin b, H (R.val / 8) (b * (R.val % 8) + l.val)
      = ∑ R : Fin n, ∑ j : Fin K, H R.val j.val := by
  subst hN hK
  rw [Cert.BlockSum.sum_blocks n 8 (fun R => ∑ l : Fin b, H (R / 8) (b * (R % 8) + l.val))]
  refine Finset.sum_congr rfl fun R _ => ?_
  rw [Cert.BlockSum.sum_blocks 8 b (H R.val)]
  refine Finset.sum_congr rfl fun p _ => Finset.sum_congr rfl fun l _ => ?_
  have hp := p.isLt
  have h1 : (8 * R.val + p.val) / 8 = R.val := by omega
  have h2 : (8 * R.val + p.val) % 8 = p.val := by omega
  rw [h1, h2]

/-- [131072, 128] is [16384, 1024] with each row cut into 8 pieces of 128 lanes: row R' holds row R'/8, lanes
    128·(R' % 8) … 128·(R' % 8) + 127. -/
theorem sum_reshape_R (H : ℕ → ℕ → M) :
    ∑ R : Fin 131072, ∑ l : Fin 128, H (R.val / 8) (128 * (R.val % 8) + l.val)
      = ∑ R : Fin 16384, ∑ j : Fin 1024, H R.val j.val :=
  sum_reshape 16384 128 131072 1024 (by norm_num) (by norm_num) H

/-- The sum over natural-number coordinates of an array read through `ext` is the sum over the array. -/
theorem sum_ext (A : SIn.Idx → M) : ∑ R : Fin 16384, ∑ j : Fin 1024, ext A R.val j.val = ∑ i, A i := by
  rw [ValueIdx.sum_idx2]
  exact Finset.sum_congr rfl fun R _ => Finset.sum_congr rfl fun j _ => ext_apply A R j

end Cert.SoftF1

end
-- ==== Proof.KSums.lean ====
/-
  The three accumulator arrays summed over all their entries: each is the sum of its summand over the whole
  [16384, 1024] argument, because the sixteen accumulator rows, the sixteen points of a run and the 64 row groups of a
  block together visit every row exactly once.
-/
import proofs.«138703_g2000304976040598_pallasbulk_888_2_alg».proof.Proof.KFinal
import proofs.«138703_g2000304976040598_pallasbulk_888_2_alg».proof.Proof.Sums

set_option maxRecDepth 16384

noncomputable section

open Idealize.ShloMosaic Idealize.ShloMosaic.TcCoe Idealize.SL.Sem

namespace Cert.KernelIdeal.KVal

open Cert.KernelIdeal Cert.KernelIdeal.Gen Idealize.ShloMosaic.ValueIdx

variable (m : (ℓ : Loc nD τ sig) → Buf (Elt Ideal) ℓ)

/-- Accumulator array 0 summed over its entries is Σ yt·yp over the whole argument. -/
theorem sumG2 (c : Dev nD) : ∑ y : S16x1024.Idx, G2 m c y = Cert.SoftF1.sumTP (YP m c) (YT m c) := by
  unfold G2 Cert.SoftF1.sumTP
  rw [ValueIdx.sum_idx2]
  simp only [zero_add]
  exact (Cert.SoftF1.sum_tiles_K (Cert.SoftF1.ext (fun i => YT m c i * YP m c i))).trans
    (Cert.SoftF1.sum_ext (fun i => YT m c i * YP m c i))

/-- Accumulator array 1 summed over its entries is Σ yp over the whole argument. -/
theorem sumG3 (c : Dev nD) : ∑ y : S16x1024.Idx, G3 m c y = Cert.SoftF1.sumP (YP m c) := by
  unfold G3 Cert.SoftF1.sumP
  rw [ValueIdx.sum_idx2]
  simp only [zero_add]
  exact (Cert.SoftF1.sum_tiles_K (Cert.SoftF1.ext (YP m c))).trans (Cert.SoftF1.sum_ext (YP m c))

/-- Accumulator array 2 summed over its entries is Σ yt over the whole argument. -/
theorem sumG4 (c : Dev nD) : ∑ y : S16x1024.Idx, G4 m c y = Cert.SoftF1.sumT (YT m c) := by
  unfold G4 Cert.SoftF1.sumT
  rw [ValueIdx.sum_idx2]
  simp only [zero_add]
  exact (Cert.SoftF1.sum_tiles_K (Cert.SoftF1.ext (YT m c))).trans (Cert.SoftF1.sum_ext (YT m c))

end Cert.KernelIdeal.KVal

end
-- ==== Proof.KTail.lean ====
/-
  The kernel's result. After the grid the host sums each accumulator array from zero, adds the sum to zero, forms
  fn = Σ yp − Σ yt·yp and fp = Σ yt − Σ yt·yp, and applies the scalar tail. Each array's total is the sum of its
  summand over the whole [16384, 1024] argument (the tiles partition it), so the result is the loss of those sums.
-/
import proofs.«138703_g2000304976040598_pallasbulk_888_2_alg».proof.Proof.KSums
import proofs.«138703_g2000304976040598_pallasbulk_888_2_alg».proof.Proof.Assemble
import Idealize.ShloMosaic.PureOps.Ideal.Laws
import Idealize.ShloMosaic.Lib.StableHlo.Run

set_option maxRecDepth 16384

noncomputable section

open Idealize.ShloMosaic Idealize.ShloMosaic.TcCoe Idealize.SL.Sem
open Idealize.ShloMosaic.Pipeline (Dat)

namespace Cert.KernelIdeal.KVal

open Cert.KernelIdeal Cert.KernelIdeal.Gen Idealize.ShloMosaic.ValueIdx

variable (m : (ℓ : Loc nD τ sig) → Buf (Elt Ideal) ℓ)

/-- The three accumulator arrays, as the lines after the grid find them. -/
theorem arr2 (c : Dev nD) :
    (Pipeline.withArrays (cfgs 0).spec c (V0 m c) (fun w => (dats m 0 c).arrAt w (cfgs 0).N) (Proc.devRef .tc main_v4_0)
      : S16x1024.Idx → Ideal .f32) = G2 m c :=
  (Pipeline.withArrays_arr spec0 launch0.win.arr_inj c _ _ 2).trans (final2 m c)
theorem arr3 (c : Dev nD) :
    (Pipeline.withArrays (cfgs 0).spec c (V0 m c) (fun w => (dats m 0 c).arrAt w (cfgs 0).N) (Proc.devRef .tc main_v4_1)
      : S16x1024.Idx → Ideal .f32) = G3 m c :=
  (Pipeline.withArrays_arr spec0 launch0.win.arr_inj c _ _ 3).trans (final3 m c)
theorem arr4 (c : Dev nD) :
    (Pipeline.withArrays (cfgs 0).spec c (V0 m c) (fun w => (dats m 0 c).arrAt w (cfgs 0).N) (Proc.devRef .tc main_v4_2)
      : S16x1024.Idx → Ideal .f32) = G4 m c :=
  (Pipeline.withArrays_arr spec0 launch0.win.arr_inj c _ _ 4).trans (final4 m c)

/-- Zero plus the host's sum of a [16, 1024] array from zero is the sum of its entries. -/
theorem red_eq (G : S16x1024.Idx → Ideal .f32) (h : S16x1024.ReducesTo [0, 1] S_) (hu : 0 < S_.numel) :
    addf (F := Ideal) (constant S_ .f32 0x00000000#32) (Host.reduceAdd (F := Ideal) G (constant S_ .f32 0x00000000#32) h hu)
      = fun _ => ∑ y, G y := by
  funext i
  simp only [addf, Host.reduceAdd, constant, Ideal.addf_def, Ideal.hostReduceAdd_def, Ideal.ofBits_def]
  rw [Ideal.hostReduceAdd_total h (fun b => b.elim0), Ideal.ofBits_zero_f32, zero_add, zero_add]

set_option maxRecDepth 100000 in
set_option maxHeartbeats 2000000 in
/-- The result buffer after the lines that follow the grid: the loss of the three sums. -/
theorem tail27 (c : Dev nD) :
    (Pipeline.afterTail₀ cfgs (dats m) 0 (V0 m) [hostOps1, hostOps1_1, hostOps1_2] c main_v27 : S_.Idx → Ideal .f32)
      = Cert.SoftF1.lossK (YP m c) (YT m c) := by
  unfold Pipeline.afterTail₀
  simp only [hostOps1, hostOps1_1, hostOps1_2, List.flatten_cons, List.flatten_nil, List.append_nil, List.cons_append, List.nil_append]
  after_results_simp
  rw [arr2 m c, arr3 m c, arr4 m c, red_eq, red_eq, red_eq, sumG2, sumG3, sumG4]
  simp only [cast_eq]
  unfold Cert.SoftF1.lossK Cert.SoftF1.loss
  rfl

/-- Every run ends with the result at the loss of the three sums of the arguments, and the arguments unchanged. -/
theorem run : Cert.SoftF1.KernelRuns := fun m ρ =>
  (θ_run defs _ _).mono (fun r h c =>
    ⟨((h c).2 main_v27 (Pipeline.mem_restRefs_of main_v27 (by decide) (by decide))).trans (tail27 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.KVal

end
-- ==== Proof.RPay.lean ====
/-
  Each accumulator payload read at one entry, over the extended reals: the carried entry plus the sum, over the 512
  row groups of the step's block, of the product formed at row 8·k + i of that block.
-/
import proofs.«138703_g2000304976040598_pallasbulk_888_2_alg».proof.Proof.Gen.ReferenceIdeal.Skeleton
import proofs.«138703_g2000304976040598_pallasbulk_888_2_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.ValueIdx

namespace Cert.ReferenceIdeal.RefValue

open Cert.ReferenceIdeal Cert.ReferenceIdeal.Gen

/-- Row 8·k + i, lane l of a [4096, 128] block: the entry row group k contributes to accumulator row i. -/
abbrev rowIx (k : Fin 512) (i : Fin 8) (l : Fin 128) : S4096x128.Idx :=
  ix2 ⟨8 * k.val + i.val, by have := k.isLt; have := i.isLt; omega⟩ l

/-- A [4096, 128] block cut into 512 groups of 8 rows and summed over the groups: at (i, l) the sum over k of the
    block at row 8·k + i. -/
theorem fold_apply (v : FVec Ideal S4096x128 .f32) (i : Fin 8) (l : Fin 128) :
    multiReduction (F := Ideal) .add [0] S8x128 (shapeCast S512x8x128 v shapeCasts_S4096x128_S512x8x128) 0x00000000#32
        reduces_S512x8x128_S8x128 (.inl rfl) rfl (ix2 i l)
      = ∑ k : Fin 512, v (rowIx k i l) := by
  refine (Ideal.multiReduction_add_single _ 0x00000000#32 reduces_S512x8x128_S8x128 (.inl rfl) rfl (ix2 i l)).trans ?_
  refine Finset.sum_congr rfl fun k _ => ?_
  refine shapeCast_apply v _ _ (rowIx k i l) ?_
  rw [Shape.rowMajor_val_two, Shape.rowMajor_val_three]
  show (8 * k.val + i.val) * 128 + l.val = (k.val * 8 + i.val) * 128 + l.val
  omega

/-- The first accumulator: carried entry plus Σₖ yt·yp. -/
theorem pay6_apply (x0 x1 : Vec Ideal S4096x128 .f32) (acc : Vec Ideal S8x128 .f32) (i : Fin 8) (l : Fin 128) :
    k0_pay6 (F := Ideal) x0 x1 acc (ix2 i l)
      = acc (ix2 i l) + ∑ k : Fin 512, x1 (rowIx k i l) * x0 (rowIx k i l) := by
  unfold k0_pay6 k0_pay4 k0_pay5
  refine (addf_apply _ _ _).trans ?_
  refine congrArg₂ (· + ·) (congrFun (shapeCast_self acc _) (ix2 i l)) ((fold_apply _ i l).trans ?_)
  refine Finset.sum_congr rfl fun k _ => ?_
  refine (mulf_apply _ _ _).trans ?_
  exact congrArg₂ (· * ·) (congrFun (shapeCast_self x1 _) _) (congrFun (shapeCast_self x0 _) _)

/-- The second accumulator: carried entry plus Σₖ (1 − yt)·yp. -/
theorem pay7_apply (x0 x1 : Vec Ideal S4096x128 .f32) (acc : Vec Ideal S8x128 .f32) (i : Fin 8) (l : Fin 128) :
    k0_pay7 (F := Ideal) x0 x1 acc (ix2 i l)
      = acc (ix2 i l) + ∑ k : Fin 512, (Cert.SoftF1.one - x1 (rowIx k i l)) * x0 (rowIx k i l) := by
  unfold k0_pay7 k0_pay4 k0_pay5
  refine (addf_apply _ _ _).trans ?_
  refine congrArg₂ (· + ·) (congrFun (shapeCast_self acc _) (ix2 i l)) ((fold_apply _ i l).trans ?_)
  refine Finset.sum_congr rfl fun k _ => ?_
  refine (mulf_apply _ _ _).trans ?_
  refine congrArg₂ (· * ·) ((subf_apply _ _ _).trans ?_) (congrFun (shapeCast_self x0 _) _)
  exact congrArg₂ (· - ·) rfl (congrFun (shapeCast_self x1 _) _)

/-- The third accumulator: carried entry plus Σₖ yt·(1 − yp). -/
theorem pay8_apply (x0 x1 : Vec Ideal S4096x128 .f32) (acc : Vec Ideal S8x128 .f32) (i : Fin 8) (l : Fin 128) :
    k0_pay8 (F := Ideal) x0 x1 acc (ix2 i l)
      = acc (ix2 i l) + ∑ k : Fin 512, x1 (rowIx k i l) * (Cert.SoftF1.one - x0 (rowIx k i l)) := by
  unfold k0_pay8 k0_pay4 k0_pay5
  refine (addf_apply _ _ _).trans ?_
  refine congrArg₂ (· + ·) (congrFun (shapeCast_self acc _) (ix2 i l)) ((fold_apply _ i l).trans ?_)
  refine Finset.sum_congr rfl fun k _ => ?_
  refine (mulf_apply _ _ _).trans ?_
  refine congrArg₂ (· * ·) (congrFun (shapeCast_self x1 _) _) ((subf_apply _ _ _).trans ?_)
  exact congrArg₂ (· - ·) rfl (congrFun (shapeCast_self x0 _) _)

/-- The zero block a reset stores reads 0 at every entry. -/
theorem pay1_apply (j : S8x128.Idx) : k0_pay1 (F := Ideal) j = 0 := Ideal.ofBits_zero_f32
theorem pay2_apply (j : S8x128.Idx) : k0_pay2 (F := Ideal) j = 0 := Ideal.ofBits_zero_f32
theorem pay3_apply (j : S8x128.Idx) : k0_pay3 (F := Ideal) j = 0 := Ideal.ofBits_zero_f32

end Cert.ReferenceIdeal.RefValue

end
-- ==== Proof.RBlocks.lean ====
/-
  The input blocks as entries of the arguments. Step t stages rows 4096·t … 4096·t + 4095 of the [131072, 128] view
  of each argument, and entry (R, l) of that view is entry (R / 8, 128·(R % 8) + l) of the [16384, 1024] argument.
-/
import proofs.«138703_g2000304976040598_pallasbulk_888_2_alg».proof.Proof.Gen.ReferenceIdeal.Frame
import proofs.«138703_g2000304976040598_pallasbulk_888_2_alg».proof.Proof.RPay
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx Idealize.ShloMosaic.Tactic
open Idealize.ShloMosaic.Pipeline (Dat)

namespace Cert.ReferenceIdeal.RefValue

open Cert.ReferenceIdeal Cert.ReferenceIdeal.Gen

variable {F : FTy → Type} [FloatOps F]
variable (m : (ℓ : Loc nD τ sig) → Buf (Elt F) ℓ) (ρ : Dev nD → PrngReg)

/-- Input block t is block row t of its array, lane block 0. -/
theorem idx_in : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (p, l) of the first input's block at step t is entry (4096·t + p, l) of its array. -/
theorem iblk0_apply (c : Dev nD) (t : Fin cfg0.N) (p : Fin 4096) (l : Fin 128)
    (h : 4096 * t.val + p.val < 131072) :
    iblk m c 0 t (ix2 p l) = V m c main_v2 (ix2 ⟨4096 * t.val + p.val, h⟩ l) := by
  unfold iblk
  rw [View.read_apply]
  show V m c main_v2 (((cfg0.win 0).blk t).view.emb (ix2 p l)) = V m c main_v2 _
  refine congrArg (V m c main_v2) (funext fun a => Fin.ext ?_)
  obtain ⟨e0, e1, -, -⟩ := idx_in t
  match a with
  | ⟨0, _⟩ => show win0_0.index t (0 : Fin 2) * 4096 + 1 * p.val = 4096 * t.val + p.val; rw [e0]; omega
  | ⟨1, _⟩ => show win0_0.index t (1 : Fin 2) * 128 + 1 * l.val = l.val; rw [e1]; omega

/-- Entry (p, l) of the second input's block at step t is entry (4096·t + p, l) of its array. -/
theorem iblk1_apply (c : Dev nD) (t : Fin cfg0.N) (p : Fin 4096) (l : Fin 128)
    (h : 4096 * t.val + p.val < 131072) :
    iblk m c 1 t (ix2 p l) = V m c main_v3 (ix2 ⟨4096 * t.val + p.val, h⟩ l) := by
  unfold iblk
  rw [View.read_apply]
  show V m c main_v3 (((cfg0.win 1).blk t).view.emb (ix2 p l)) = V m c main_v3 _
  refine congrArg (V m c main_v3) (funext fun a => Fin.ext ?_)
  obtain ⟨-, -, e0, e1⟩ := idx_in t
  match a with
  | ⟨0, _⟩ => show win0_1.index t (0 : Fin 2) * 4096 + 1 * p.val = 4096 * t.val + p.val; rw [e0]; omega
  | ⟨1, _⟩ => show win0_1.index t (1 : Fin 2) * 128 + 1 * l.val = l.val; rw [e1]; omega

/-- The first input's array is the first argument flattened and cut into rows of 128. -/
theorem V_v2 (c : Dev nD) : (V m c main_v2 : S131072x128.Idx → Elt F .f32)
    = shapeCast S131072x128 (shapeCast S16777216 (m ((c : Thread nD τ).loc main_arg0)) shapeCasts_S16384x1024_S16777216) shapeCasts_S16777216_S131072x128 := by
  show StableHlo.after hostOps0 (fun b => m (c, b)) (Proc.devRef .tc main_v2) = _
  after_results
  rfl

/-- The second input's array is the second argument flattened and cut into rows of 128. -/
theorem V_v3 (c : Dev nD) : (V m c main_v3 : S131072x128.Idx → Elt F .f32)
    = shapeCast S131072x128 (shapeCast S16777216 (m ((c : Thread nD τ).loc main_arg1)) shapeCasts_S16384x1024_S16777216) shapeCasts_S16777216_S131072x128 := by
  show StableHlo.after hostOps0 (fun b => m (c, b)) (Proc.devRef .tc main_v3) = _
  after_results
  rfl

/-- Flattening [16384, 1024] and cutting into rows of 128: entry (R, l) is entry (R / 8, 128·(R % 8) + l). -/
theorem recut_apply {α : Type} (x : S16384x1024.Idx → α) (R : Fin 131072) (l : Fin 128)
    (h0 : R.val / 8 < 16384) (h1 : 128 * (R.val % 8) + l.val < 1024) :
    shapeCast S131072x128 (shapeCast S16777216 x shapeCasts_S16384x1024_S16777216) shapeCasts_S16777216_S131072x128 (ix2 R l)
      = x (ix2 ⟨R.val / 8, h0⟩ ⟨128 * (R.val % 8) + l.val, h1⟩) := by
  have hR := R.isLt
  have hl := l.isLt
  refine (shapeCast_apply _ _ _ (ix1 ⟨128 * R.val + l.val, by omega⟩) ?_).trans ?_
  · rw [Shape.rowMajor_val_one, Shape.rowMajor_val_two]
    show 128 * R.val + l.val = R.val * 128 + l.val
    omega
  refine shapeCast_apply _ _ _ _ ?_
  rw [Shape.rowMajor_val_two, Shape.rowMajor_val_one]
  show R.val / 8 * 1024 + (128 * (R.val % 8) + l.val) = 128 * R.val + l.val
  omega

end Cert.ReferenceIdeal.RefValue

namespace Cert.ReferenceIdeal.RefValue

open Cert.ReferenceIdeal Cert.ReferenceIdeal.Gen

variable (m : (ℓ : Loc nD τ sig) → Buf (Elt Ideal) ℓ)

/-- Over the extended reals: entry (8·k + i, l) of the first input's block at step t, as an entry of the first
    argument read at natural-number coordinates. -/
theorem blk0_apply (c : Dev nD) (t : Fin cfg0.N) (k : Fin 512) (i : Fin 8) (l : Fin 128) :
    iblk m c 0 t (rowIx k i l)
      = Cert.SoftF1.ext (M := Ideal .f32) (m ((c : Thread nD τ).loc main_arg0))
          ((4096 * t.val + (8 * k.val + i.val)) / 8) (128 * ((4096 * t.val + (8 * k.val + i.val)) % 8) + l.val) := by
  have hN : t.val < 32 := lt_of_lt_of_eq t.isLt (show cfg0.N = 32 from N_0)
  have hk := k.isLt
  have hi := i.isLt
  have hl := l.isLt
  have hR : 4096 * t.val + (8 * k.val + i.val) < 131072 := by omega
  refine (iblk0_apply m c t ⟨8 * k.val + i.val, by omega⟩ l hR).trans ?_
  refine (congrFun (V_v2 m c) _).trans ?_
  refine (recut_apply _ ⟨4096 * t.val + (8 * k.val + i.val), hR⟩ l (by show (4096 * t.val + (8 * k.val + i.val)) / 8 < 16384; omega)
    (by show 128 * ((4096 * t.val + (8 * k.val + i.val)) % 8) + l.val < 1024; omega)).trans ?_
  exact (Cert.SoftF1.ext_apply (M := Ideal .f32) _ ⟨_, _⟩ ⟨_, _⟩).symm

/-- The same for the second input and the second argument. -/
theorem blk1_apply (c : Dev nD) (t : Fin cfg0.N) (k : Fin 512) (i : Fin 8) (l : Fin 128) :
    iblk m c 1 t (rowIx k i l)
      = Cert.SoftF1.ext (M := Ideal .f32) (m ((c : Thread nD τ).loc main_arg1))
          ((4096 * t.val + (8 * k.val + i.val)) / 8) (128 * ((4096 * t.val + (8 * k.val + i.val)) % 8) + l.val) := by
  have hN : t.val < 32 := lt_of_lt_of_eq t.isLt (show cfg0.N = 32 from N_0)
  have hk := k.isLt
  have hi := i.isLt
  have hl := l.isLt
  have hR : 4096 * t.val + (8 * k.val + i.val) < 131072 := by omega
  refine (iblk1_apply m c t ⟨8 * k.val + i.val, by omega⟩ l hR).trans ?_
  refine (congrFun (V_v3 m c) _).trans ?_
  refine (recut_apply _ ⟨4096 * t.val + (8 * k.val + i.val), hR⟩ l (by show (4096 * t.val + (8 * k.val + i.val)) / 8 < 16384; omega)
    (by show 128 * ((4096 * t.val + (8 * k.val + i.val)) % 8) + l.val < 1024; omega)).trans ?_
  exact (Cert.SoftF1.ext_apply (M := Ideal .f32) _ ⟨_, _⟩ ⟨_, _⟩).symm

end Cert.ReferenceIdeal.RefValue

end
-- ==== Proof.RStep.lean ====
/-
  One grid step on each accumulator, over the extended reals: the carried entry plus the step's addend, the addend
  being a sum of entries of one array of products of the two arguments, read at natural-number coordinates.
-/
import proofs.«138703_g2000304976040598_pallasbulk_888_2_alg».proof.Proof.Gen.ReferenceIdeal.Frame
import proofs.«138703_g2000304976040598_pallasbulk_888_2_alg».proof.Proof.RPay
import proofs.«138703_g2000304976040598_pallasbulk_888_2_alg».proof.Proof.RBlocks
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen Cert.SoftF1

variable (m : (ℓ : Loc nD τ sig) → Buf (Elt Ideal) ℓ)

/-- Reading a pointwise combination of two arrays at natural-number coordinates combines the readings, when the
    combination of two zeros is zero. -/
theorem ext_map2 (φ : Ideal .f32 → Ideal .f32 → Ideal .f32) (hφ : φ 0 0 = 0) (A B : SIn.Idx → Ideal .f32) (R j : ℕ) :
    ext (fun x => φ (A x) (B x)) R j = φ (ext A R j) (ext B R j) := by
  unfold ext
  split
  · rfl
  · exact hφ.symm

/-- What one step adds to entry j of an accumulator: the sum over the 512 row groups of the step's block of the array A
    at the row the group contributes, read at natural-number coordinates. -/
def addend (A : SIn.Idx → Ideal .f32) (n : ℕ) (j : S8x128.Idx) : Ideal .f32 :=
  ∑ k : Fin 512, ext A ((4096 * n + (8 * k.val + (j 0).val)) / 8) (128 * ((4096 * n + (8 * k.val + (j 0).val)) % 8) + (j 1).val)

/-- The first argument (the predictions) and the second (the targets) as launched, on core c. -/
abbrev argP (c : Dev nD) : SIn.Idx → Ideal .f32 := m ((c : Thread nD τ).loc main_arg0)
abbrev argT (c : Dev nD) : SIn.Idx → Ideal .f32 := m ((c : Thread nD τ).loc main_arg1)

/-- The three arrays of products the accumulators sum: yt·yp, (1 − yt)·yp, yt·(1 − yp). -/
abbrev prodTP (c : Dev nD) : SIn.Idx → Ideal .f32 := fun x => argT m c x * argP m c x
abbrev prodFN (c : Dev nD) : SIn.Idx → Ideal .f32 := fun x => (one - argT m c x) * argP m c x
abbrev prodFP (c : Dev nD) : SIn.Idx → Ideal .f32 := fun x => argT m c x * (one - argP m c x)

/-- One step of the first accumulator: the carried entry plus the step's addend of yt·yp. -/
theorem step2 (c : Dev nD) (t : Fin cfg0.N) (acc : Vec Ideal S8x128 .f32) (j : S8x128.Idx) :
    k0_pay6 (F := Ideal) (iblk m c 0 t) (iblk m c 1 t) acc j = acc j + addend (prodTP m c) t.val j := by
  obtain ⟨p, q, rfl⟩ : ∃ (p : Fin 8) (q : Fin 128), j = ix2 p q := ⟨j 0, j 1, eq_ix2 j⟩
  refine (pay6_apply (iblk m c 0 t) (iblk m c 1 t) acc p q).trans ?_
  refine congrArg₂ (· + ·) rfl (Finset.sum_congr rfl fun k _ => ?_)
  refine (congrArg₂ (fun (u v : Ideal .f32) => u * v) (blk1_apply m c t k p q) (blk0_apply m c t k p q)).trans ?_
  exact (ext_map2 (fun u v => u * v) (mul_zero 0) (argT m c) (argP m c) _ _).symm

/-- One step of the second accumulator: the carried entry plus the step's addend of (1 − yt)·yp. -/
theorem step3 (c : Dev nD) (t : Fin cfg0.N) (acc : Vec Ideal S8x128 .f32) (j : S8x128.Idx) :
    k0_pay7 (F := Ideal) (iblk m c 0 t) (iblk m c 1 t) acc j = acc j + addend (prodFN m c) t.val j := by
  obtain ⟨p, q, rfl⟩ : ∃ (p : Fin 8) (q : Fin 128), j = ix2 p q := ⟨j 0, j 1, eq_ix2 j⟩
  refine (pay7_apply (iblk m c 0 t) (iblk m c 1 t) acc p q).trans ?_
  refine congrArg₂ (· + ·) rfl (Finset.sum_congr rfl fun k _ => ?_)
  refine (congrArg₂ (fun (u v : Ideal .f32) => (one - u) * v) (blk1_apply m c t k p q) (blk0_apply m c t k p q)).trans ?_
  exact (ext_map2 (fun u v => (one - u) * v) (mul_zero _) (argT m c) (argP m c) _ _).symm

/-- One step of the third accumulator: the carried entry plus the step's addend of yt·(1 − yp). -/
theorem step4 (c : Dev nD) (t : Fin cfg0.N) (acc : Vec Ideal S8x128 .f32) (j : S8x128.Idx) :
    k0_pay8 (F := Ideal) (iblk m c 0 t) (iblk m c 1 t) acc j = acc j + addend (prodFP m c) t.val j := by
  obtain ⟨p, q, rfl⟩ : ∃ (p : Fin 8) (q : Fin 128), j = ix2 p q := ⟨j 0, j 1, eq_ix2 j⟩
  refine (pay8_apply (iblk m c 0 t) (iblk m c 1 t) acc p q).trans ?_
  refine congrArg₂ (· + ·) rfl (Finset.sum_congr rfl fun k _ => ?_)
  refine (congrArg₂ (fun (u v : Ideal .f32) => u * (one - v)) (blk1_apply m c t k p q) (blk0_apply m c t k p q)).trans ?_
  exact (ext_map2 (fun u v => u * (one - v)) (zero_mul _) (argT m c) (argP m c) _ _).symm

end Cert.ReferenceIdeal.RefValue

end
-- ==== Proof.RPieces.lean ====
/-
  What one grid step leaves in each of the three accumulator blocks, read back as a value: the step's sum of
  products added to the block carried from the step before, or to the zero block at a reset.
-/
import proofs.«138703_g2000304976040598_pallasbulk_888_2_alg».proof.Proof.Gen.ReferenceIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Gen

variable {F : FTy → Type} [FloatOps F]

theorem hz : (![0, 0] : Fin 2 → Nat) = fun _ => 0 := funext fun a => by fin_cases a <;> rfl

/-- Between resets the body leaves in accumulator 0 the carried block plus this step's 512 row-group products. -/
theorem out_B_2 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc : ¬cond0_0 i)
    (x0 x1 : Vec F S4096x128 .f32) (xo2 xo3 xo4 : Vec F S8x128 .f32) :
    out0_B_2 c i arg2 harg2 arg3 harg3 arg4 harg4 arg5 harg5 arg6 harg6 hc x0 x1 xo2 xo3 xo4 = k0_pay6 x0 x1 xo2 := by
  unfold out0_B_2
  rw [View.read_writes_eq_canon _ _ _ (cover0_B_2 c i arg2 harg2 arg3 harg3 arg4 harg4 arg5 harg5 arg6 harg6 hc x0 x1 xo2 xo3 xo4)]
  unfold kernelRun0_B
  dsimp only
  rw [View.canon_unit_zero hz]
  simp only [View.readAt_eq_ld, harg2.read_unread, harg3.read_unread, harg4.read_unread, harg5.read_unread, harg6.read_unread, View.ld_unit_zero (S := S4096x128) hz, View.ld_unit_zero (S := S8x128) hz]

/-- Between resets the body leaves in accumulator 1 the carried block plus this step's 512 row-group products. -/
theorem out_B_3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc : ¬cond0_0 i)
    (x0 x1 : Vec F S4096x128 .f32) (xo2 xo3 xo4 : Vec F S8x128 .f32) :
    out0_B_3 c i arg2 harg2 arg3 harg3 arg4 harg4 arg5 harg5 arg6 harg6 hc x0 x1 xo2 xo3 xo4 = k0_pay7 x0 x1 xo3 := by
  unfold out0_B_3
  rw [View.read_writes_eq_canon _ _ _ (cover0_B_3 c i arg2 harg2 arg3 harg3 arg4 harg4 arg5 harg5 arg6 harg6 hc x0 x1 xo2 xo3 xo4)]
  unfold kernelRun0_B
  dsimp only
  rw [View.canon_unit_zero hz]
  simp only [View.readAt_eq_ld, harg2.read_unread, harg3.read_unread, harg4.read_unread, harg5.read_unread, harg6.read_unread, View.ld_unit_zero (S := S4096x128) hz, View.ld_unit_zero (S := S8x128) hz]

/-- Between resets the body leaves in accumulator 2 the carried block plus this step's 512 row-group products. -/
theorem out_B_4 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc : ¬cond0_0 i)
    (x0 x1 : Vec F S4096x128 .f32) (xo2 xo3 xo4 : Vec F S8x128 .f32) :
    out0_B_4 c i arg2 harg2 arg3 harg3 arg4 harg4 arg5 harg5 arg6 harg6 hc x0 x1 xo2 xo3 xo4 = k0_pay8 x0 x1 xo4 := by
  unfold out0_B_4
  rw [View.read_writes_eq_canon _ _ _ (cover0_B_4 c i arg2 harg2 arg3 harg3 arg4 harg4 arg5 harg5 arg6 harg6 hc x0 x1 xo2 xo3 xo4)]
  unfold kernelRun0_B
  dsimp only
  sl_unfold_words
  rw [View.canon_unit_zero hz]
  simp only [View.readAt_eq_ld, harg2.read_unread, harg3.read_unread, harg4.read_unread, harg5.read_unread, harg6.read_unread, View.ld_unit_zero (S := S4096x128) hz, View.ld_unit_zero (S := S8x128) hz]

/-- At a reset the body stores the zero block, reads it back, and leaves it plus this step's 512 row-group products. -/
theorem out_A_2 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc : cond0_0 i)
    (x0 x1 : Vec F S4096x128 .f32) :
    out0_A_2 c i arg2 harg2 arg3 harg3 arg4 harg4 arg5 harg5 arg6 harg6 hc x0 x1 = k0_pay6 x0 x1 k0_pay1 := by
  unfold out0_A_2
  rw [View.read_writes_eq_canon _ _ _ (cover0_A_2 c i arg2 harg2 arg3 harg3 arg4 harg4 arg5 harg5 arg6 harg6 hc x0 x1)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, View.ld_unit_zero (S := S4096x128) hz, View.ld_unit_zero (S := S8x128) hz]

/-- At a reset the body stores the zero block, reads it back, and leaves it plus this step's 512 row-group products. -/
theorem out_A_3 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc : cond0_0 i)
    (x0 x1 : Vec F S4096x128 .f32) :
    out0_A_3 c i arg2 harg2 arg3 harg3 arg4 harg4 arg5 harg5 arg6 harg6 hc x0 x1 = k0_pay7 x0 x1 k0_pay2 := by
  unfold out0_A_3
  rw [View.read_writes_eq_canon _ _ _ (cover0_A_3 c i arg2 harg2 arg3 harg3 arg4 harg4 arg5 harg5 arg6 harg6 hc x0 x1)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, View.ld_unit_zero (S := S4096x128) hz, View.ld_unit_zero (S := S8x128) hz]

/-- At a reset the body stores the zero block, reads it back, and leaves it plus this step's 512 row-group products. -/
theorem out_A_4 (c : Dev nD) (i : grid0.Coords) (arg2 : Memref sig .tc .vmem S4096x128 .f32) (harg2 : arg2.IsWhole) (arg3 : Memref sig .tc .vmem S4096x128 .f32) (harg3 : arg3.IsWhole) (arg4 : Memref sig .tc .vmem S8x128 .f32) (harg4 : arg4.IsWhole) (arg5 : Memref sig .tc .vmem S8x128 .f32) (harg5 : arg5.IsWhole) (arg6 : Memref sig .tc .vmem S8x128 .f32) (harg6 : arg6.IsWhole) (hc : cond0_0 i)
    (x0 x1 : Vec F S4096x128 .f32) :
    out0_A_4 c i arg2 harg2 arg3 harg3 arg4 harg4 arg5 harg5 arg6 harg6 hc x0 x1 = k0_pay8 x0 x1 k0_pay3 := by
  unfold out0_A_4
  rw [View.read_writes_eq_canon _ _ _ (cover0_A_4 c i arg2 harg2 arg3 harg3 arg4 harg4 arg5 harg5 arg6 harg6 hc x0 x1)]
  unfold kernelRun0_A
  dsimp only
  sl_unfold_words
  rw [View.canon_cons_unit_zero (S := S8x128) hz, View.readCov_unit_zero (S := S8x128) _ hz]
  simp only [View.readAt_eq_ld, harg2.read_unread, harg3.read_unread, harg4.read_unread, harg5.read_unread, harg6.read_unread, View.ld_unit_zero (S := S4096x128) hz, View.ld_unit_zero (S := S8x128) hz]

end Cert.ReferenceIdeal.RefValue

end
-- ==== Proof.RAcc.lean ====
/-
  Each accumulator after any grid step, over the extended reals: zero plus the addends of the steps since the last
  reset. The steps reset at the multiples of 16 and add otherwise, so the content after step t is the fold over the
  run 16·(t / 16) … t, and the fold of additions from zero is a sum over the run.
-/
import proofs.«138703_g2000304976040598_pallasbulk_888_2_alg».proof.Proof.Gen.ReferenceIdeal.Frame
import proofs.«138703_g2000304976040598_pallasbulk_888_2_alg».proof.Proof.RPieces
import proofs.«138703_g2000304976040598_pallasbulk_888_2_alg».proof.Proof.RPay
import proofs.«138703_g2000304976040598_pallasbulk_888_2_alg».proof.Proof.RStep
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen Cert.SoftF1

variable (m : (ℓ : Loc nD τ sig) → Buf (Elt Ideal) ℓ)

/-- The first accumulator after step t: zero plus the addends of the steps since the last reset. -/
theorem acc2_apply (c : Dev nD) (t : Fin cfg0.N) (j : S8x128.Idx) :
    (outsAt0 m c t.val t.isLt).1 j
      = 0 + ∑ s ∈ Finset.range (t.val % 16 + 1), addend (prodTP m c) (16 * (t.val / 16) + s) j := by
  have h' : 16 * (t.val / 16) + t.val % 16 < cfg0.N := by rw [Nat.div_add_mod]; exact t.isLt
  have e := Pipeline.eq_accAt_of_mod (N := cfg0.N) (fun n h => (outsAt0 m c n h).1) 16
    (fun n h => k0_pay6 (F := Ideal) (iblk m c 0 ⟨n, h⟩) (iblk m c 1 ⟨n, h⟩) (k0_pay1 (F := Ideal)))
    (fun n h acc => k0_pay6 (F := Ideal) (iblk m c 0 ⟨n, h⟩) (iblk m c 1 ⟨n, h⟩) acc)
    (fun n h hn => (congrArg (fun x => x.1) (outsAt0_A m c ⟨n, h⟩ hn)).trans
      (out_A_2 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hn) (iblk m c 0 ⟨n, h⟩) (iblk m c 1 ⟨n, h⟩)))
    (fun n h hn => (congrArg (fun x => x.1) (outsAt0_B m c ⟨n + 1, h⟩ hn)).trans
      (out_B_2 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun h'' => hn ((hcond0_0 ⟨n + 1, h⟩).mp h'')) (iblk m c 0 ⟨n + 1, h⟩) (iblk m c 1 ⟨n + 1, h⟩)
        (outsAt0 m c n (Nat.lt_of_succ_lt h)).1 (outsAt0 m c n (Nat.lt_of_succ_lt h)).2.1 (outsAt0 m c n (Nat.lt_of_succ_lt h)).2.2))
    (by decide) t.val t.isLt h'
  refine (congrFun e j).trans ?_
  exact Pipeline.accAt_add_apply (N := cfg0.N) _ _ (fun _ => 0) (addend (prodTP m c)) (16 * (t.val / 16)) 15
    (fun h i => (step2 m c ⟨_, h⟩ (k0_pay1 (F := Ideal)) i).trans (congrArg₂ (· + ·) (pay1_apply i) rfl))
    (fun n h acc i _ _ => step2 m c ⟨n, h⟩ acc i)
    (t.val % 16) (by omega) h' j

/-- The second accumulator after step t: zero plus the addends of the steps since the last reset. -/
theorem acc3_apply (c : Dev nD) (t : Fin cfg0.N) (j : S8x128.Idx) :
    (outsAt0 m c t.val t.isLt).2.1 j
      = 0 + ∑ s ∈ Finset.range (t.val % 16 + 1), addend (prodFN m c) (16 * (t.val / 16) + s) j := by
  have h' : 16 * (t.val / 16) + t.val % 16 < cfg0.N := by rw [Nat.div_add_mod]; exact t.isLt
  have e := Pipeline.eq_accAt_of_mod (N := cfg0.N) (fun n h => (outsAt0 m c n h).2.1) 16
    (fun n h => k0_pay7 (F := Ideal) (iblk m c 0 ⟨n, h⟩) (iblk m c 1 ⟨n, h⟩) (k0_pay2 (F := Ideal)))
    (fun n h acc => k0_pay7 (F := Ideal) (iblk m c 0 ⟨n, h⟩) (iblk m c 1 ⟨n, h⟩) acc)
    (fun n h hn => (congrArg (fun x => x.2.1) (outsAt0_A m c ⟨n, h⟩ hn)).trans
      (out_A_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hn) (iblk m c 0 ⟨n, h⟩) (iblk m c 1 ⟨n, h⟩)))
    (fun n h hn => (congrArg (fun x => x.2.1) (outsAt0_B m c ⟨n + 1, h⟩ hn)).trans
      (out_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun h'' => hn ((hcond0_0 ⟨n + 1, h⟩).mp h'')) (iblk m c 0 ⟨n + 1, h⟩) (iblk m c 1 ⟨n + 1, h⟩)
        (outsAt0 m c n (Nat.lt_of_succ_lt h)).1 (outsAt0 m c n (Nat.lt_of_succ_lt h)).2.1 (outsAt0 m c n (Nat.lt_of_succ_lt h)).2.2))
    (by decide) t.val t.isLt h'
  refine (congrFun e j).trans ?_
  exact Pipeline.accAt_add_apply (N := cfg0.N) _ _ (fun _ => 0) (addend (prodFN m c)) (16 * (t.val / 16)) 15
    (fun h i => (step3 m c ⟨_, h⟩ (k0_pay2 (F := Ideal)) i).trans (congrArg₂ (· + ·) (pay2_apply i) rfl))
    (fun n h acc i _ _ => step3 m c ⟨n, h⟩ acc i)
    (t.val % 16) (by omega) h' j

/-- The third accumulator after step t: zero plus the addends of the steps since the last reset. -/
theorem acc4_apply (c : Dev nD) (t : Fin cfg0.N) (j : S8x128.Idx) :
    (outsAt0 m c t.val t.isLt).2.2 j
      = 0 + ∑ s ∈ Finset.range (t.val % 16 + 1), addend (prodFP m c) (16 * (t.val / 16) + s) j := by
  have h' : 16 * (t.val / 16) + t.val % 16 < cfg0.N := by rw [Nat.div_add_mod]; exact t.isLt
  have e := Pipeline.eq_accAt_of_mod (N := cfg0.N) (fun n h => (outsAt0 m c n h).2.2) 16
    (fun n h => k0_pay8 (F := Ideal) (iblk m c 0 ⟨n, h⟩) (iblk m c 1 ⟨n, h⟩) (k0_pay3 (F := Ideal)))
    (fun n h acc => k0_pay8 (F := Ideal) (iblk m c 0 ⟨n, h⟩) (iblk m c 1 ⟨n, h⟩) acc)
    (fun n h hn => (congrArg (fun x => x.2.2) (outsAt0_A m c ⟨n, h⟩ hn)).trans
      (out_A_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) ((hcond0_0 ⟨n, h⟩).mpr hn) (iblk m c 0 ⟨n, h⟩) (iblk m c 1 ⟨n, h⟩)))
    (fun n h hn => (congrArg (fun x => x.2.2) (outsAt0_B m c ⟨n + 1, h⟩ hn)).trans
      (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun h'' => hn ((hcond0_0 ⟨n + 1, h⟩).mp h'')) (iblk m c 0 ⟨n + 1, h⟩) (iblk m c 1 ⟨n + 1, h⟩)
        (outsAt0 m c n (Nat.lt_of_succ_lt h)).1 (outsAt0 m c n (Nat.lt_of_succ_lt h)).2.1 (outsAt0 m c n (Nat.lt_of_succ_lt h)).2.2))
    (by decide) t.val t.isLt h'
  refine (congrFun e j).trans ?_
  exact Pipeline.accAt_add_apply (N := cfg0.N) _ _ (fun _ => 0) (addend (prodFP m c)) (16 * (t.val / 16)) 15
    (fun h i => (step4 m c ⟨_, h⟩ (k0_pay3 (F := Ideal)) i).trans (congrArg₂ (· + ·) (pay3_apply i) rfl))
    (fun n h acc i _ _ => step4 m c ⟨n, h⟩ acc i)
    (t.val % 16) (by omega) h' j

end Cert.ReferenceIdeal.RefValue

end
-- ==== Proof.RFinal.lean ====
/-
  Each output array as ONE function of the arguments. A core writes an accumulator back once, after its sixteenth
  step, when it holds zero plus the addends of all sixteen; the two cores' blocks tile the [16, 128] array.
-/
import proofs.«138703_g2000304976040598_pallasbulk_888_2_alg».proof.Proof.Gen.ReferenceIdeal.Frame
import proofs.«138703_g2000304976040598_pallasbulk_888_2_alg».proof.Proof.RStep
import proofs.«138703_g2000304976040598_pallasbulk_888_2_alg».proof.Proof.RAcc
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.RefValue

open Cert.ReferenceIdeal Cert.ReferenceIdeal.Gen Cert.SoftF1

variable (m : (ℓ : Loc nD τ sig) → Buf (Elt Ideal) ℓ)

/-- Each output block is block row t / 16, lane block 0, of its [16, 128] array. -/
theorem idx_out : ∀ t : Fin cfg0.N, win0_2.index t (0 : Fin 2) = t.val / 16 ∧ win0_2.index t (1 : Fin 2) = 0
    ∧ win0_3.index t (0 : Fin 2) = t.val / 16 ∧ win0_3.index t (1 : Fin 2) = 0
    ∧ win0_4.index t (0 : Fin 2) = t.val / 16 ∧ win0_4.index t (1 : Fin 2) = 0 :=
  (by decide +kernel : ∀ t : Fin grid0.N, _)

/-- Entry (i, l) of the accumulator of core q once its 16 steps are done: zero plus, over the steps s and the row groups
    k, the array A at row 4096·(16·q + s) + 8·k + i, lane l of the [131072, 128] view. -/
def total (A : SIn.Idx → Ideal .f32) (q i l : ℕ) : Ideal .f32 :=
  0 + ∑ s ∈ Finset.range 16, ∑ k : Fin 512,
    ext A ((4096 * (16 * q + s) + (8 * k.val + i)) / 8) (128 * ((4096 * (16 * q + s) + (8 * k.val + i)) % 8) + l)

/-- An output array as one function of the arguments: row r belongs to core r / 8, accumulator row r % 8. -/
def outArr (A : SIn.Idx → Ideal .f32) : S16x128.Idx → Ideal .f32 :=
  fun j => total A ((j 0).val / 8) ((j 0).val % 8) (j 1).val

/-- What a write-back of output 0 writes is its block of `outArr`. -/
theorem flushed2_eq (c : Dev nD) (t : Fin cfg0.N) (hf : (cfg0.win 2).flush t = true) :
    (dats m 0 c).flushed 2 t = ((cfg0.win 2).blk t).view.read (Elt Ideal) (outArr (prodTP m c)) := by
  have h15 : t.val % 16 = 15 := (flush0_2 t).mp hf
  show (cfg0.win 2).cut (grid0.coords t) ((dats m 0 c).after 2 t) = _
  rw [after0_2]
  funext y
  show (outsAt0 m c t.val t.isLt).1 y = outArr (prodTP m c) (((cfg0.win 2).blk t).view.emb y)
  refine (acc2_apply m c t y).trans ?_
  rw [h15]
  have hy : (y 0).val < 8 := (y 0).isLt
  obtain ⟨e0, e1, -, -, -, -⟩ := idx_out t
  have c0 : ((((cfg0.win 2).blk t).view.emb y) 0).val = 8 * (t.val / 16) + (y 0).val := by
    show win0_2.index t (0 : Fin 2) * 8 + 1 * (y 0).val = _
    rw [e0]; omega
  have c1 : ((((cfg0.win 2).blk t).view.emb y) 1).val = (y 1).val := by
    show win0_2.index t (1 : Fin 2) * 128 + 1 * (y 1).val = _
    rw [e1]; omega
  unfold outArr
  rw [c0, c1, show (8 * (t.val / 16) + (y 0).val) / 8 = t.val / 16 from by omega,
    show (8 * (t.val / 16) + (y 0).val) % 8 = (y 0).val from by omega]
  rfl

/-- A row of output 0 is in step t's block iff each coordinate is in the block's range. -/
theorem mem_blk2 (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v4_0).slice (win0_2.rect t)).set ↔ _
  rw [View.set_slice_whole, Rect.mem_set_unit]
  exact Iff.rfl

/-- Every row of output 0 is in the block its core writes back after its last step. -/
theorem cover2 (i : S16x128.Idx) :
    ∃ t : Fin cfg0.N, (cfg0.win 2).flush t = true ∧ i ∈ ((cfg0.win 2).blk t).view.set := by
  have h0 : (i 0).val < 16 := (i 0).isLt
  have h1 : (i 1).val < 128 := (i 1).isLt
  have ht : 16 * ((i 0).val / 8) + 15 < cfg0.N := by rw [show cfg0.N = 32 from N_0]; omega
  refine ⟨⟨16 * ((i 0).val / 8) + 15, ht⟩, (flush0_2 ⟨16 * ((i 0).val / 8) + 15, ht⟩).mpr (by show (16 * ((i 0).val / 8) + 15) % 16 = 15; omega), ?_⟩
  rw [mem_blk2]
  obtain ⟨e0, e1, -, -, -, -⟩ := idx_out ⟨16 * ((i 0).val / 8) + 15, ht⟩
  intro a
  match a with
  | ⟨0, _⟩ =>
    show win0_2.index ⟨16 * ((i 0).val / 8) + 15, ht⟩ (0 : Fin 2) * 8 ≤ (i 0).val ∧ (i 0).val < win0_2.index ⟨16 * ((i 0).val / 8) + 15, ht⟩ (0 : Fin 2) * 8 + 8
    rw [e0]
    show (16 * ((i 0).val / 8) + 15) / 16 * 8 ≤ (i 0).val ∧ (i 0).val < (16 * ((i 0).val / 8) + 15) / 16 * 8 + 8
    omega
  | ⟨1, _⟩ =>
    show win0_2.index ⟨16 * ((i 0).val / 8) + 15, ht⟩ (1 : Fin 2) * 128 ≤ (i 1).val ∧ (i 1).val < win0_2.index ⟨16 * ((i 0).val / 8) + 15, ht⟩ (1 : Fin 2) * 128 + 128
    rw [e1]
    omega

/-- So output 0 ends holding `outArr` of its array of products. -/
theorem final2 (c : Dev nD) : (dats m 0 c).arrAt 2 cfg0.N = outArr (prodTP m c) :=
  (dats m 0 c).arrAt_eq_of_cover 2 (outArr (prodTP m c)) (flushed2_eq m c) cover2

/-- What a write-back of output 1 writes is its block of `outArr`. -/
theorem flushed3_eq (c : Dev nD) (t : Fin cfg0.N) (hf : (cfg0.win 3).flush t = true) :
    (dats m 0 c).flushed 3 t = ((cfg0.win 3).blk t).view.read (Elt Ideal) (outArr (prodFN m c)) := by
  have h15 : t.val % 16 = 15 := (flush0_3 t).mp hf
  show (cfg0.win 3).cut (grid0.coords t) ((dats m 0 c).after 3 t) = _
  rw [after0_3]
  funext y
  show (outsAt0 m c t.val t.isLt).2.1 y = outArr (prodFN m c) (((cfg0.win 3).blk t).view.emb y)
  refine (acc3_apply m c t y).trans ?_
  rw [h15]
  have hy : (y 0).val < 8 := (y 0).isLt
  obtain ⟨-, -, e0, e1, -, -⟩ := idx_out t
  have c0 : ((((cfg0.win 3).blk t).view.emb y) 0).val = 8 * (t.val / 16) + (y 0).val := by
    show win0_3.index t (0 : Fin 2) * 8 + 1 * (y 0).val = _
    rw [e0]; omega
  have c1 : ((((cfg0.win 3).blk t).view.emb y) 1).val = (y 1).val := by
    show win0_3.index t (1 : Fin 2) * 128 + 1 * (y 1).val = _
    rw [e1]; omega
  unfold outArr
  rw [c0, c1, show (8 * (t.val / 16) + (y 0).val) / 8 = t.val / 16 from by omega,
    show (8 * (t.val / 16) + (y 0).val) % 8 = (y 0).val from by omega]
  rfl

/-- A row of output 1 is in step t's block iff each coordinate is in the block's range. -/
theorem mem_blk3 (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v4_1).slice (win0_3.rect t)).set ↔ _
  rw [View.set_slice_whole, Rect.mem_set_unit]
  exact Iff.rfl

/-- Every row of output 1 is in the block its core writes back after its last step. -/
theorem cover3 (i : S16x128.Idx) :
    ∃ t : Fin cfg0.N, (cfg0.win 3).flush t = true ∧ i ∈ ((cfg0.win 3).blk t).view.set := by
  have h0 : (i 0).val < 16 := (i 0).isLt
  have h1 : (i 1).val < 128 := (i 1).isLt
  have ht : 16 * ((i 0).val / 8) + 15 < cfg0.N := by rw [show cfg0.N = 32 from N_0]; omega
  refine ⟨⟨16 * ((i 0).val / 8) + 15, ht⟩, (flush0_3 ⟨16 * ((i 0).val / 8) + 15, ht⟩).mpr (by show (16 * ((i 0).val / 8) + 15) % 16 = 15; omega), ?_⟩
  rw [mem_blk3]
  obtain ⟨-, -, e0, e1, -, -⟩ := idx_out ⟨16 * ((i 0).val / 8) + 15, ht⟩
  intro a
  match a with
  | ⟨0, _⟩ =>
    show win0_3.index ⟨16 * ((i 0).val / 8) + 15, ht⟩ (0 : Fin 2) * 8 ≤ (i 0).val ∧ (i 0).val < win0_3.index ⟨16 * ((i 0).val / 8) + 15, ht⟩ (0 : Fin 2) * 8 + 8
    rw [e0]
    show (16 * ((i 0).val / 8) + 15) / 16 * 8 ≤ (i 0).val ∧ (i 0).val < (16 * ((i 0).val / 8) + 15) / 16 * 8 + 8
    omega
  | ⟨1, _⟩ =>
    show win0_3.index ⟨16 * ((i 0).val / 8) + 15, ht⟩ (1 : Fin 2) * 128 ≤ (i 1).val ∧ (i 1).val < win0_3.index ⟨16 * ((i 0).val / 8) + 15, ht⟩ (1 : Fin 2) * 128 + 128
    rw [e1]
    omega

/-- So output 1 ends holding `outArr` of its array of products. -/
theorem final3 (c : Dev nD) : (dats m 0 c).arrAt 3 cfg0.N = outArr (prodFN m c) :=
  (dats m 0 c).arrAt_eq_of_cover 3 (outArr (prodFN m c)) (flushed3_eq m c) cover3

/-- What a write-back of output 2 writes is its block of `outArr`. -/
theorem flushed4_eq (c : Dev nD) (t : Fin cfg0.N) (hf : (cfg0.win 4).flush t = true) :
    (dats m 0 c).flushed 4 t = ((cfg0.win 4).blk t).view.read (Elt Ideal) (outArr (prodFP m c)) := by
  have h15 : t.val % 16 = 15 := (flush0_4 t).mp hf
  show (cfg0.win 4).cut (grid0.coords t) ((dats m 0 c).after 4 t) = _
  rw [after0_4]
  funext y
  show (outsAt0 m c t.val t.isLt).2.2 y = outArr (prodFP m c) (((cfg0.win 4).blk t).view.emb y)
  refine (acc4_apply m c t y).trans ?_
  rw [h15]
  have hy : (y 0).val < 8 := (y 0).isLt
  obtain ⟨-, -, -, -, e0, e1⟩ := idx_out t
  have c0 : ((((cfg0.win 4).blk t).view.emb y) 0).val = 8 * (t.val / 16) + (y 0).val := by
    show win0_4.index t (0 : Fin 2) * 8 + 1 * (y 0).val = _
    rw [e0]; omega
  have c1 : ((((cfg0.win 4).blk t).view.emb y) 1).val = (y 1).val := by
    show win0_4.index t (1 : Fin 2) * 128 + 1 * (y 1).val = _
    rw [e1]; omega
  unfold outArr
  rw [c0, c1, show (8 * (t.val / 16) + (y 0).val) / 8 = t.val / 16 from by omega,
    show (8 * (t.val / 16) + (y 0).val) % 8 = (y 0).val from by omega]
  rfl

/-- A row of output 2 is in step t's block iff each coordinate is in the block's range. -/
theorem mem_blk4 (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v4_2).slice (win0_4.rect t)).set ↔ _
  rw [View.set_slice_whole, Rect.mem_set_unit]
  exact Iff.rfl

/-- Every row of output 2 is in the block its core writes back after its last step. -/
theorem cover4 (i : S16x128.Idx) :
    ∃ t : Fin cfg0.N, (cfg0.win 4).flush t = true ∧ i ∈ ((cfg0.win 4).blk t).view.set := by
  have h0 : (i 0).val < 16 := (i 0).isLt
  have h1 : (i 1).val < 128 := (i 1).isLt
  have ht : 16 * ((i 0).val / 8) + 15 < cfg0.N := by rw [show cfg0.N = 32 from N_0]; omega
  refine ⟨⟨16 * ((i 0).val / 8) + 15, ht⟩, (flush0_4 ⟨16 * ((i 0).val / 8) + 15, ht⟩).mpr (by show (16 * ((i 0).val / 8) + 15) % 16 = 15; omega), ?_⟩
  rw [mem_blk4]
  obtain ⟨-, -, -, -, e0, e1⟩ := idx_out ⟨16 * ((i 0).val / 8) + 15, ht⟩
  intro a
  match a with
  | ⟨0, _⟩ =>
    show win0_4.index ⟨16 * ((i 0).val / 8) + 15, ht⟩ (0 : Fin 2) * 8 ≤ (i 0).val ∧ (i 0).val < win0_4.index ⟨16 * ((i 0).val / 8) + 15, ht⟩ (0 : Fin 2) * 8 + 8
    rw [e0]
    show (16 * ((i 0).val / 8) + 15) / 16 * 8 ≤ (i 0).val ∧ (i 0).val < (16 * ((i 0).val / 8) + 15) / 16 * 8 + 8
    omega
  | ⟨1, _⟩ =>
    show win0_4.index ⟨16 * ((i 0).val / 8) + 15, ht⟩ (1 : Fin 2) * 128 ≤ (i 1).val ∧ (i 1).val < win0_4.index ⟨16 * ((i 0).val / 8) + 15, ht⟩ (1 : Fin 2) * 128 + 128
    rw [e1]
    omega

/-- So output 2 ends holding `outArr` of its array of products. -/
theorem final4 (c : Dev nD) : (dats m 0 c).arrAt 4 cfg0.N = outArr (prodFP m c) :=
  (dats m 0 c).arrAt_eq_of_cover 4 (outArr (prodFP m c)) (flushed4_eq m c) cover4

end Cert.ReferenceIdeal.RefValue

end
-- ==== Proof.RTail.lean ====
/-
  The host tail. The three output arrays are totalled from zero and added to zero, which gives Σ yt·yp, Σ (1 − yt)·yp
  and Σ yt·(1 − yp) over the whole arguments (the accumulator blocks tile the [131072, 128] view, which is the
  [16384, 1024] argument with each row cut into 8); the remaining scalar operations are the loss of these three.
-/
import proofs.«138703_g2000304976040598_pallasbulk_888_2_alg».proof.Proof.Gen.ReferenceIdeal.Frame
import proofs.«138703_g2000304976040598_pallasbulk_888_2_alg».proof.Proof.RStep
import proofs.«138703_g2000304976040598_pallasbulk_888_2_alg».proof.Proof.RFinal
import proofs.«138703_g2000304976040598_pallasbulk_888_2_alg».proof.Proof.Sums
import Idealize.ShloMosaic.PureOps.Ideal.Laws
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem Idealize.ShloMosaic.ValueIdx Idealize.ShloMosaic.Tactic
open Idealize.ShloMosaic.Pipeline (Dat)

namespace Cert.ReferenceIdeal.RefValue

open Cert.ReferenceIdeal Cert.ReferenceIdeal.Gen Cert.SoftF1

variable (m : (ℓ : Loc nD τ sig) → Buf (Elt Ideal) ℓ)

/-- The total of an output array is the total of its array of products: the 32 blocks of 4096 rows tile the
    [131072, 128] view, which is the [16384, 1024] argument with each row cut into 8. -/
theorem sum_outArr (A : SIn.Idx → Ideal .f32) : ∑ j : S16x128.Idx, outArr A j = ∑ i, A i := by
  have e : ∀ (r : Fin 16) (l : Fin 128), outArr A (ix2 r l)
      = ∑ s ∈ Finset.range 16, ∑ k : Fin 512,
          (fun R l' => ext A (R / 8) (128 * (R % 8) + l')) (4096 * (16 * (r.val / 8) + s) + (8 * k.val + r.val % 8)) l.val :=
    fun r l => zero_add _
  exact (sum_idx2 _).trans ((Finset.sum_congr rfl fun r _ => Finset.sum_congr rfl fun l _ => e r l).trans
    (((sum_tiles_R (fun R l' => ext A (R / 8) (128 * (R % 8) + l'))).trans (sum_reshape_R (ext A))).trans (sum_ext A)))

/-- The host's total of an output array from zero, added to zero: the total of its array of products. -/
theorem reduce_outArr (A : SIn.Idx → Ideal .f32) :
    addf (constant (F := Ideal) S_ .f32 0x00000000#32)
      (Host.reduceAdd (F := Ideal) (outArr A) (constant (F := Ideal) S_ .f32 0x00000000#32) reducesTo_S16x128_S_d0_1 h_S_)
    = fun _ => ∑ i, A i := by
  funext j
  refine (addf_apply _ _ _).trans ?_
  refine (congrArg₂ (· + ·) Ideal.ofBits_zero_f32
    ((Ideal.hostReduceAdd_total reducesTo_S16x128_S_d0_1 (fun b => b.elim0) (outArr A) _ j).trans
      (congrArg₂ (· + ·) Ideal.ofBits_zero_f32 (sum_outArr A)))).trans ?_
  rw [zero_add, zero_add]

/-- After the region the array of output 0 is `outArr` of its array of products. -/
theorem arr2_eq (c : Dev nD) :
    (Pipeline.withArrays (cfgs 0).spec c (V0 m c) (fun w => (dats m 0 c).arrAt w (cfgs 0).N) (Proc.devRef .tc main_v4_0) : S16x128.Idx → Ideal .f32)
      = outArr (prodTP m c) :=
  (Pipeline.withArrays_arr spec0 launch0.win.arr_inj c _ _ 2).trans (final2 m c)

/-- After the region the array of output 1 is `outArr` of its array of products. -/
theorem arr3_eq (c : Dev nD) :
    (Pipeline.withArrays (cfgs 0).spec c (V0 m c) (fun w => (dats m 0 c).arrAt w (cfgs 0).N) (Proc.devRef .tc main_v4_1) : S16x128.Idx → Ideal .f32)
      = outArr (prodFN m c) :=
  (Pipeline.withArrays_arr spec0 launch0.win.arr_inj c _ _ 3).trans (final3 m c)

/-- After the region the array of output 2 is `outArr` of its array of products. -/
theorem arr4_eq (c : Dev nD) :
    (Pipeline.withArrays (cfgs 0).spec c (V0 m c) (fun w => (dats m 0 c).arrAt w (cfgs 0).N) (Proc.devRef .tc main_v4_2) : S16x128.Idx → Ideal .f32)
      = outArr (prodFP m c) :=
  (Pipeline.withArrays_arr spec0 launch0.win.arr_inj c _ _ 4).trans (final4 m c)

/-- The host tail after the region, opened: the result is the loss of the three totals. -/
theorem tail_eq (c : Dev nD) :
    (Pipeline.afterTail₀ cfgs (dats m) 0 (V0 m) [hostOps1, hostOps1_1, hostOps1_2] c main_v25 : S_.Idx → Ideal .f32)
      = lossR (argP m c) (argT m c) := by
  unfold Pipeline.afterTail₀
  simp only [hostOps1, hostOps1_1, hostOps1_2, List.flatten_cons, List.flatten_nil, List.append_nil, List.cons_append, List.nil_append]
  after_results_simp
  rw [arr2_eq m c, arr3_eq m c, arr4_eq m c, reduce_outArr, reduce_outArr, reduce_outArr]
  simp only [cast_eq]
  rfl

end Cert.ReferenceIdeal.RefValue

end
-- ==== Proof.RRun.lean ====
/-
  The reference run, read: from any memory the idealized reference terminates with the loss of the three direct sums
  of its two arguments in its result, and the arguments as launched.
-/
import proofs.«138703_g2000304976040598_pallasbulk_888_2_alg».proof.Proof.Gen.ReferenceIdeal.Frame
import proofs.«138703_g2000304976040598_pallasbulk_888_2_alg».proof.Proof.Spec
import proofs.«138703_g2000304976040598_pallasbulk_888_2_alg».proof.Proof.RStep
import proofs.«138703_g2000304976040598_pallasbulk_888_2_alg».proof.Proof.RTail
import Idealize.ShloMosaic.Lib.Pipeline.Value

set_option maxRecDepth 16384

noncomputable section

open Idealize.ShloMosaic Idealize.ShloMosaic.TcCoe Idealize.SL.Sem Idealize.ShloMosaic.ValueIdx Idealize.ShloMosaic.Tactic
open Idealize.ShloMosaic.Pipeline (Dat)

namespace Cert.ReferenceIdeal.RefValue

open Cert.ReferenceIdeal Cert.ReferenceIdeal.Gen Cert.SoftF1

variable (m : (ℓ : Loc nD τ sig) → Buf (Elt Ideal) ℓ)

/-- Every weakly fair execution of the idealized reference terminates; the result buffer then holds `lossR` of the two
    arguments as launched, and the arguments are unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v25) = Cert.SoftF1.lossR (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v25 (Pipeline.mem_restRefs_of main_v25 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.ReferenceIdeal.RefValue

end
-- ==== Proof.lean ====
/-
  The soft-F1 loss of two f32[16384, 1024] arrays, computed two ways, is one value over the extended reals.

  Both programs cut their input into 32 row blocks, give blocks 16·c … 16·c + 15 to core c, and keep three [8, W]
  accumulators per core that start at zero and add, at each block, the fold of the block's rows in groups of 8; the
  host then sums the accumulators. One program reads the arguments as [16384, 1024] (blocks of 512 rows) and
  accumulates yt·yp, yp and yt, forming fn = Σ yp − Σ yt·yp and fp = Σ yt − Σ yt·yp afterwards; the other reads them
  as [131072, 128] (blocks of 4096 rows) and accumulates yt·yp, (1 − yt)·yp and yt·(1 − yp). The tiles partition the
  array either way, so each accumulated total is the sum of its summand over every entry (only the order of a finite
  sum changes); and for real entries Σ (1 − yt)·yp = Σ yp − Σ yt·yp and Σ yt·(1 − yp) = Σ yt − Σ yt·yp. Both then
  apply the same scalar expression to (tp, fn, fp), which is never opened.
-/
import proofs.«138703_g2000304976040598_pallasbulk_888_2_alg».proof.Defs
import proofs.«138703_g2000304976040598_pallasbulk_888_2_alg».proof.Proof.Assemble
import proofs.«138703_g2000304976040598_pallasbulk_888_2_alg».proof.Proof.KTail
import proofs.«138703_g2000304976040598_pallasbulk_888_2_alg».proof.Proof.RRun

noncomputable section

namespace Cert.Proof

/-- The five claims: the three frames, the empty idealization ledger, and equal results at the extended reals. -/
theorem claim : Cert.Claim :=
  Cert.SoftF1.claim_of_runs Cert.KernelIdeal.KVal.run Cert.ReferenceIdeal.RefValue.run

end Cert.Proof

end
